-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S32x16 .f32) (main_arg8 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x32 .f32) (main_arg6 : FVec F S32 .f32) (main_arg7 : FVec F S32x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x32, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x32, .f32⟩
  | .hbm, ⟨80, _⟩ => ⟨S1700000x1, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x16, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x16, .f32⟩
  | .hbm, ⟨99, _⟩ => ⟨S1700000x1, .f32⟩
  | .hbm, ⟨100, _⟩ => ⟨S1700000x16, .f32⟩
  | .hbm, ⟨101, _⟩ => ⟨S1700000x16, .f32⟩
  | .hbm, ⟨102, _⟩ => ⟨S_, .f32⟩
  | .hbm, ⟨103, _⟩ => ⟨S100000x16, .f32⟩
  | .hbm, ⟨104, _⟩ => ⟨S1700000x1, .i32⟩
  | .hbm, ⟨105, _⟩ => ⟨S100000x16, .f32⟩
  | .hbm, ⟨106, _⟩ => ⟨S1x16, .f32⟩
  | .hbm, ⟨107, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S100000x32, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x32, .f32⟩
  | 120 => ⟨S1700000x1, .f32⟩
  | 121 => ⟨S1700000x32, .f32⟩
  | 122 => ⟨S1700000x32, .f32⟩
  | 123 => ⟨S_, .f32⟩
  | 124 => ⟨S100000x32, .f32⟩
  | 125 => ⟨S1700000x1, .i32⟩
  | 126 => ⟨S100000x32, .f32⟩
  | 127 => ⟨S1x32, .f32⟩
  | _ => ⟨S100000x128, .f32⟩

abbrev hbmTy0_1 (i : Nat) : BufTy := match i % 128 with
  | 0 => ⟨S100000x32, .f32⟩
  | 1 => ⟨S100000x32, .f32⟩
  | 2 => ⟨S100000x32, .f32⟩
  | 3 => ⟨S100000x16, .f32⟩
  | 4 => ⟨S100000, .i32⟩
  | 5 => ⟨S1700000, .i32⟩
  | 6 => ⟨S1700000, .i32⟩
  | 7 => ⟨S_, .f32⟩
  | 8 => ⟨S100000, .f32⟩
  | 9 => ⟨S1700000, .f32⟩
  | 10 => ⟨S_, .f32⟩
  | 11 => ⟨S100000, .f32⟩
  | 12 => ⟨S1700000x1, .i32⟩
  | 13 => ⟨S100000, .f32⟩
  | 14 => ⟨S_, .f32⟩
  | 15 => ⟨S100000, .f32⟩
  | 16 => ⟨S100000, .i1⟩
  | 17 => ⟨S100000, .f32⟩
  | 18 => ⟨S_, .f32⟩
  | 19 => ⟨S_, .f32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x16, .f32⟩
  | 51 => ⟨S1700000x1, .f32⟩
  | 52 => ⟨S1700000x16, .f32⟩
  | 53 => ⟨S1700000x16, .f32⟩
  | 54 => ⟨S_, .f32⟩
  | 55 => ⟨S100000x16, .f32⟩
  | 56 => ⟨S1700000x1, .i32⟩
  | 57 => ⟨S100000x16, .f32⟩
  | 58 => ⟨S1x16, .f32⟩
  | 59 => ⟨S100000x16, .f32⟩
  | 60 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_23 : Ref sig .tc := ⟨.hbm, 146, rfl⟩
abbrev main_call2_v0 : Ref sig .tc := ⟨.hbm, 147, rfl⟩
abbrev main_call2_v1 : Ref sig .tc := ⟨.hbm, 148, rfl⟩
abbrev main_v108 : Ref sig .tc := ⟨.hbm, 149, rfl⟩
abbrev main_c_24 : Ref sig .tc := ⟨.hbm, 150, rfl⟩
abbrev main_v109 : Ref sig .tc := ⟨.hbm, 151, rfl⟩
abbrev main_v110 : Ref sig .tc := ⟨.hbm, 152, rfl⟩
abbrev main_c_25 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_26 : Ref sig .tc := ⟨.hbm, 160, rfl⟩
abbrev main_v117 : Ref sig .tc := ⟨.hbm, 161, rfl⟩
abbrev main_v118 : Ref sig .tc := ⟨.hbm, 162, rfl⟩
abbrev main_c_27 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_28 : Ref sig .tc := ⟨.hbm, 170, rfl⟩
abbrev main_v125 : Ref sig .tc := ⟨.hbm, 171, rfl⟩
abbrev main_v126 : Ref sig .tc := ⟨.hbm, 172, rfl⟩
abbrev main_c_29 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_30 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The run of the idealized kernel program with its two results named.

  The program is twelve segments: stretches of host operations and six pipelined regions. Each segment maps the
  contents of the core's buffers at its entry to their contents at its exit, so the contents after the whole run are
  a fold through the segments from the launch memory; the fold's last value is the valuation `W12`. Every weakly
  fair execution terminates without a fault, and in its final state every buffer that outlives the regions holds what
  `W12` says. Read at the two result buffers and at the nine arguments (which no segment writes) this is the
  statement below; what `W12` holds at the two results is computed elsewhere.
-/
import proofs.«155394_j64733747085460_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents, and the arguments end as launched. -/
theorem run : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_v63) = W12 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       h c _ (mem_uc main_v63 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Results

end
-- ==== Proof.Spec.lean ====
/-
  The function both programs compute: three graph-convolution layers on the extended reals.

  The edge list `ei` is a [2, E] integer array (row 0 the sources, row 1 the targets) and `ew` the E edge weights.
  Every node receives a self loop of weight 1: `src`, `dst` are the E + N endpoints with 0 … N-1 appended and `wts`
  the weights with N ones appended. The degree of node i is the sum of the weights of the edges whose target is i,
  `dinv` is its reciprocal square root where the degree is positive and 0 elsewhere, and the normalised weight of edge
  e is dinv (src e) · w e · dinv (dst e). One layer maps a node table h [N, D] to
      out (i, q) = ∑ over edges e with dst e = i of (h · W) (src e, q) · norm e  +  b q
  (gather the rows of h · W at the sources, scale by the edge's normalised weight, scatter-add at the targets, add
  the bias row). The network is layer 3 ∘ tanh ∘ layer 2 ∘ tanh ∘ layer 1; its two results are the output of layer 3
  (`logits`) and the output of layer 2 (`emb`). A negative index counts from the end (`wrap`), as in jnp.

  Everything is stated with the host operations themselves (whole-array functions on the extended reals), over the
  dimension records of the printed reference, so that the reference's result term is these functions by unfolding.
-/
import proofs.«155394_j64733747085460_1_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic

/-- An integer array of shape `S`. -/
abbrev I32 (S : Shape) := IVec S 32
/-- A real array of shape `S` (entries extended reals). -/
abbrev F32 (S : Shape) := FVec Ideal S .f32

/-- Row `r` of the edge list followed by the self loops 0 … N-1. -/
def endpoints (r : Nat) (hs : S2x1600000.Slices ![r, 0] S1x1600000) (ei : I32 S2x1600000) : I32 S1700000 :=
  concatenate S1700000 0 [⟨S1600000, shapeCast _ (extractStridedSlice S1x1600000 ![r, 0] ei hs) shapeCasts_S1x1600000_S1600000⟩,
    ⟨S100000, iotaInDim S100000 32 0⟩] concatenates_S1600000_S100000_S1700000_d0

/-- The sources of the E + N edges. -/
def src (ei : I32 S2x1600000) : I32 S1700000 := endpoints 0 slices_S2x1600000_S1x1600000_0_0 ei
/-- The targets of the E + N edges. -/
def dst (ei : I32 S2x1600000) : I32 S1700000 := endpoints 1 slices_S2x1600000_S1x1600000_1_0 ei

/-- The edge weights followed by a 1 per self loop. -/
def wts (ew : F32 S1600000) : F32 S1700000 :=
  concatenate S1700000 0 [⟨S1600000, ew⟩,
    ⟨S100000, broadcastInDim S100000 ![] bcast_S_S100000 (constant (F := Ideal) S_ .f32 0x3F800000#32)⟩] concatenates_S1600000_S100000_S1700000_d0

/-- A negative index counts from the end: v + N where v < 0, v elsewhere. -/
def wrap (v : I32 S1700000) : I32 S1700000 :=
  select (cmpi .slt v (broadcastInDim S1700000 ![] bcast_S_S1700000 (constantI S_ 32 0#32)))
    (addi v (broadcastInDim S1700000 ![] bcast_S_S1700000 (constantI S_ 32 100000#32))) v

/-- An index vector as the one-column matrix gather and scatter take. -/
def asColumn {α : Type} (v : S1700000.Idx → α) : S1700000x1.Idx → α :=
  broadcastInDim S1700000x1 ![0] bcast_S1700000_S1700000x1_0 v

/-- The all-zero vector of N reals. -/
def zerosN : F32 S100000 := broadcastInDim S100000 ![] bcast_S_S100000 (constant (F := Ideal) S_ .f32 0x00000000#32)

/-- The weighted in-degree of every node, self loop included. -/
def deg (ei : I32 S2x1600000) (ew : F32 S1600000) : F32 S100000 :=
  Host.scatterAdd (F := Ideal) scatter_S100000_S1700000x1_S1700000_n_0_0_1 zerosN (asColumn (dst ei)) (wts ew)

/-- deg^(-1/2) where the degree is positive, 0 elsewhere. -/
def dinv (ei : I32 S2x1600000) (ew : F32 S1600000) : F32 S100000 :=
  select (cmpf .ogt (deg ei ew) zerosN) (Host.rsqrt (F := Ideal) (deg ei ew))
    (broadcastInDim S100000 ![] bcast_S_S100000 (id (constant (F := Ideal) S_ .f32 0x00000000#32)))

/-- The symmetric normalisation of every edge: dinv (src e) · w e · dinv (dst e). -/
def norm (ei : I32 S2x1600000) (ew : F32 S1600000) : F32 S1700000 :=
  mulf (mulf (Host.gather gather_S100000_S1700000x1_S1700000_n_0_n_n_0_1_1 (dinv ei ew) (asColumn (wrap (src ei)))) (wts ew))
    (Host.gather gather_S100000_S1700000x1_S1700000_n_0_n_n_0_1_1 (dinv ei ew) (asColumn (wrap (dst ei))))

/-- Width 64: gather the projected rows at the sources, scale each by its edge's normalised weight, add them up at
    the targets. `s`, `d`, `nrm` are the sources, targets and normalised weights of the edges. -/
def aggregate64 (xw : F32 S100000x64) (s d : I32 S1700000) (nrm : F32 S1700000) : F32 S100000x64 :=
  Host.scatterAdd (F := Ideal) scatter_S100000x64_S1700000x1_S1700000x64_1_0_0_1
    (broadcastInDim S100000x64 ![] bcast_S_S100000x64 (constant (F := Ideal) S_ .f32 0x00000000#32)) (asColumn d)
    (mulf (Host.gather gather_S100000x64_S1700000x1_S1700000x64_1_0_n_n_0_1_164 xw (asColumn (wrap s)))
      (broadcastInDim S1700000x64 ![0, 1] bcast_S1700000x1_S1700000x64_0_1 (asColumn nrm)))

/-- Width 32: the same aggregation. -/
def aggregate32 (xw : F32 S100000x32) (s d : I32 S1700000) (nrm : F32 S1700000) : F32 S100000x32 :=
  Host.scatterAdd (F := Ideal) scatter_S100000x32_S1700000x1_S1700000x32_1_0_0_1
    (broadcastInDim S100000x32 ![] bcast_S_S100000x32 (constant (F := Ideal) S_ .f32 0x00000000#32)) (asColumn d)
    (mulf (Host.gather gather_S100000x32_S1700000x1_S1700000x32_1_0_n_n_0_1_132 xw (asColumn (wrap s)))
      (broadcastInDim S1700000x32 ![0, 1] bcast_S1700000x1_S1700000x32_0_1 (asColumn nrm)))

/-- Width 16: the same aggregation. -/
def aggregate16 (xw : F32 S100000x16) (s d : I32 S1700000) (nrm : F32 S1700000) : F32 S100000x16 :=
  Host.scatterAdd (F := Ideal) scatter_S100000x16_S1700000x1_S1700000x16_1_0_0_1
    (broadcastInDim S100000x16 ![] bcast_S_S100000x16 (constant (F := Ideal) S_ .f32 0x00000000#32)) (asColumn d)
    (mulf (Host.gather gather_S100000x16_S1700000x1_S1700000x16_1_0_n_n_0_1_116 xw (asColumn (wrap s)))
      (broadcastInDim S1700000x16 ![0, 1] bcast_S1700000x1_S1700000x16_0_1 (asColumn nrm)))

/-- The bias vector as a one-row matrix. -/
def biasRow64 (b : F32 S64) : F32 S1x64 := broadcastInDim S1x64 ![1] bcast_S64_S1x64_1 b
def biasRow32 (b : F32 S32) : F32 S1x32 := broadcastInDim S1x32 ![1] bcast_S32_S1x32_1 b
def biasRow16 (b : F32 S16) : F32 S1x16 := broadcastInDim S1x16 ![1] bcast_S16_S1x16_1 b

/-- Add the bias row to every row of the table. -/
def addRow64 (a : F32 S100000x64) (row : F32 S1x64) : F32 S100000x64 :=
  addf a (broadcastInDim S100000x64 ![0, 1] bcast_S1x64_S100000x64_0_1 row)
def addRow32 (a : F32 S100000x32) (row : F32 S1x32) : F32 S100000x32 :=
  addf a (broadcastInDim S100000x32 ![0, 1] bcast_S1x32_S100000x32_0_1 row)
def addRow16 (a : F32 S100000x16) (row : F32 S1x16) : F32 S100000x16 :=
  addf a (broadcastInDim S100000x16 ![0, 1] bcast_S1x16_S100000x16_0_1 row)

/-- The three dense projections h · W. -/
def project1 (x : F32 S100000x128) (w : F32 S128x64) : F32 S100000x64 :=
  Host.dotGeneral (F := Ideal) dot_S100000x128_S128x64_S100000x64_1_0_0_1_n_n none x w
def project2 (x : F32 S100000x64) (w : F32 S64x32) : F32 S100000x32 :=
  Host.dotGeneral (F := Ideal) dot_S100000x64_S64x32_S100000x32_1_0_0_1_n_n none x w
def project3 (x : F32 S100000x32) (w : F32 S32x16) : F32 S100000x16 :=
  Host.dotGeneral (F := Ideal) dot_S100000x32_S32x16_S100000x16_1_0_0_1_n_n none x w

/-- The hidden table after the first layer and its activation. -/
def hidden (x : F32 S100000x128) (ei : I32 S2x1600000) (ew : F32 S1600000) (W1 : F32 S128x64) (b1 : F32 S64) : F32 S100000x64 :=
  Host.tanh (F := Ideal) (addRow64 (aggregate64 (project1 x W1) (src ei) (dst ei) (norm ei ew)) (biasRow64 b1))

/-- The second layer's output: the embedding the network returns. -/
def emb (x : F32 S100000x128) (ei : I32 S2x1600000) (ew : F32 S1600000) (W1 : F32 S128x64) (b1 : F32 S64)
    (W2 : F32 S64x32) (b2 : F32 S32) : F32 S100000x32 :=
  addRow32 (aggregate32 (project2 (hidden x ei ew W1 b1) W2) (src ei) (dst ei) (norm ei ew)) (biasRow32 b2)

/-- The third layer on the activated embedding: the logits the network returns. -/
def logits (x : F32 S100000x128) (ei : I32 S2x1600000) (ew : F32 S1600000) (W1 : F32 S128x64) (b1 : F32 S64)
    (W2 : F32 S64x32) (b2 : F32 S32) (W3 : F32 S32x16) (b3 : F32 S16) : F32 S100000x16 :=
  addRow16 (aggregate16 (project3 (Host.tanh (F := Ideal) (emb x ei ew W1 b1 W2 b2)) W3) (src ei) (dst ei) (norm ei ew)) (biasRow16 b3)

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Linear0.lean ====
/-
  The first dense projection, x · W with x of 100000 rows and 128 columns and W of 128 rows and 64 columns,
  computed block by block: as one array.

  The rows of x are cut into ten blocks of 10000 rows; W is used whole at every block. At block t the body
  multiplies the block of x by W into a zero accumulator (rounding the operands to bf16 first, which on the
  extended reals changes nothing) and stores the 10000 × 64 result as block t of the output. Entry (j, q) of
  that result is the sum over k < 128 of x (10000 t + j, k) · W (k, q): it reads row 10000 t + j of x and all
  of W, and nothing else. The same sum is entry (10000 t + j, q) of the whole product x · W, so block t of the
  output is block t of the whole product; the ten blocks cover the 100000 rows (row r lies in block r / 10000),
  hence the output array ends holding the whole product.
-/
import proofs.«155394_j64733747085460_1_alg».proof.Proof.Gen.KernelIdeal.Frame
import proofs.«155394_j64733747085460_1_alg».proof.Proof.LibPlainDot
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The offsets of a whole-buffer access are zero on both axes. -/
theorem zero_offsets0 : (![0, 0] : Fin 2 → Nat) = fun _ => 0 := funext fun a => by fin_cases a <;> rfl

/-! ## One block of the product -/

/-- Entry (p, q) of what the body stores from a block `x0` of x and the whole of W, `x1`: the sum over k of
    x0 (p, k) · x1 (k, q). The two roundings to bf16 are the identity on the extended reals, and the product
    into the zero accumulator is the plain sum over the contracted axis. -/
theorem block_product0_apply (x0 : Vec Ideal S10000x128 .f32) (x1 : Vec Ideal S128x64 .f32) (p : Fin 10000) (q : Fin 64) :
    Gen.k0_pay1 (F := Ideal) x0 x1 (ix2 p q) = ∑ k : Fin 128, x0 (ix2 p k) * x1 (ix2 k q) := by
  unfold Gen.k0_pay1
  exact Cert.LibPlainDot.matmul_zero_apply (M := 10000) (K := 128) (N := 64) none
    (truncf .bf16 x0 bitsLt_bf16_f32) (truncf .bf16 x1 bitsLt_bf16_f32) p q

variable (V : (c : Dev nD) → (b : Ref sig .tc) → Buf (Elt Ideal) ((c : Thread nD τ).loc b))

/-! ## Where a block sits in its array -/

/-- The printed index maps over the ten grid points: at point t the block of x and the block of the output are
    the t-th along the rows and the only one along the columns; W has one block, used at every point. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of block t of x is entry (10000 t + p, k) of x. -/
theorem x_block0_apply (c : Dev nD) (t : Fin cfg0.N) (p : Fin 10000) (k : Fin 128) (r : Fin 100000)
    (hr : r.val = t.val * 10000 + p.val) :
    (Gen.iblk0 V c 0 t : Vec Ideal S10000x128 .f32) (ix2 p k) = (V c main_arg0 : Vec Ideal S100000x128 .f32) (ix2 r k) := by
  obtain ⟨e00, e01, -⟩ := block_index0 t
  unfold Gen.iblk0
  rw [View.read_apply]
  show V c main_arg0 _ = V c main_arg0 _
  refine congrArg (V c main_arg0) ?_
  funext a; apply Fin.ext
  match a with
  | ⟨0, _⟩ => show win0_0.index t (0 : Fin 2) * 10000 + 1 * p.val = r.val; omega
  | ⟨1, _⟩ => show win0_0.index t (1 : Fin 2) * 128 + 1 * k.val = k.val; omega

/-- The one block of W is W. -/
theorem w_block0_apply (c : Dev nD) (t : Fin cfg0.N) (k : Fin 128) (q : Fin 64) :
    (Gen.iblk0 V c 1 t : Vec Ideal S128x64 .f32) (ix2 k q) = (V c main_arg3 : Vec Ideal S128x64 .f32) (ix2 k q) := by
  obtain ⟨-, -, e10, e11, -⟩ := block_index0 t
  unfold Gen.iblk0
  rw [View.read_apply]
  show V c main_arg3 _ = V c main_arg3 _
  refine congrArg (V c main_arg3) ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- Entry (p, q) of block t of the output is entry (10000 t + p, q) of the output array. -/
theorem out_block0_emb (t : Fin cfg0.N) (p : Fin 10000) (q : Fin 64) (r : Fin 100000)
    (hr : r.val = t.val * 10000 + p.val) :
    ((cfg0.win 2).blk t).view.emb (ix2 p q) = (ix2 r q : S100000x64.Idx) := by
  obtain ⟨-, -, -, -, e20, e21⟩ := block_index0 t
  funext a; apply Fin.ext
  match a with
  | ⟨0, _⟩ => show win0_2.index t (0 : Fin 2) * 10000 + 1 * p.val = r.val; omega
  | ⟨1, _⟩ => show win0_2.index t (1 : Fin 2) * 64 + 1 * q.val = q.val; omega

/-! ## The whole product, and block t of it -/

/-- The whole product x · W of the two arrays, as the host computes it. -/
abbrev product0 (x : FVec Ideal S100000x128 .f32) (w : FVec Ideal S128x64 .f32) : FVec Ideal S100000x64 .f32 :=
  Host.dotGeneral (F := Ideal) (DotDims.plain 100000 128 64) none x w

/-- Entry (r, q) of the whole product: the sum over k of x (r, k) · W (k, q). -/
theorem product0_apply (x : FVec Ideal S100000x128 .f32) (w : FVec Ideal S128x64 .f32) (r : Fin 100000) (q : Fin 64) :
    product0 x w (ix2 r q) = ∑ k : Fin 128, x (ix2 r k) * w (ix2 k q) :=
  Cert.LibPlainDot.dotGeneral_apply (M := 100000) (K := 128) (N := 64) none .single x w r q

/-- What grid point t writes back is block t of the whole product: entry (p, q) of the block the body stores
    and entry (10000 t + p, q) of x · W are the same sum, over row 10000 t + p of x and column q of W. -/
theorem flushed0_eq (c : Dev nD) (t : Fin cfg0.N) :
    (Gen.dat0 (F := Ideal) V c).flushed 2 t
      = ((cfg0.win 2).blk t).view.read (Elt Ideal) (product0 (V c main_arg0) (V c main_arg3)) := by
  show (cfg0.win 2).cut (grid0.coords t) ((Gen.dat0 (F := Ideal) V c).after 2 t) = _
  rw [Gen.after0_2]
  unfold Gen.out0_2
  rw [View.canon_unit_zero zero_offsets0]
  simp only [View.ld_unit_zero (S := S10000x128) zero_offsets0, View.ld_unit_zero (S := S128x64) zero_offsets0]
  have ht : t.val < 10 := lt_of_lt_of_eq t.isLt Gen.N_0
  refine funext fun (j : S10000x64.Idx) => ?_
  obtain ⟨p, q, rfl⟩ : ∃ (p : Fin 10000) (q : Fin 64), j = ix2 p q := ⟨j 0, j 1, eq_ix2 j⟩
  have hp : p.val < 10000 := p.isLt
  show Gen.k0_pay1 (F := Ideal) (Gen.iblk0 V c 0 t) (Gen.iblk0 V c 1 t) (ix2 p q)
      = product0 (V c main_arg0) (V c main_arg3) (((cfg0.win 2).blk t).view.emb (ix2 p q))
  rw [out_block0_emb t p q ⟨t.val * 10000 + p.val, by omega⟩ rfl, product0_apply]
  refine (block_product0_apply _ _ p q).trans (Finset.sum_congr rfl fun k _ => ?_)
  rw [x_block0_apply V c t p k ⟨t.val * 10000 + p.val, by omega⟩ rfl, w_block0_apply V c t k q]

/-! ## The blocks cover the array -/

/-- An entry of the output array is in point t's block iff each coordinate is in the block's range on its axis. -/
theorem mem_out_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r of the output lies in the block of grid point r / 10000, and every point writes its block back. -/
theorem out_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := Gen.N_0
  let t : Fin cfg0.N := ⟨(i 0).val / 10000, by show (i 0).val / 10000 < grid0.N; omega⟩
  obtain ⟨-, -, -, -, e20, e21⟩ := block_index0 t
  have e20' : win0_2.index t (0 : Fin 2) = (i 0).val / 10000 := e20
  refine ⟨t, Gen.flush0_2 t, ?_⟩
  rw [mem_out_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-! ## The output array -/

/-- After the ten grid points the output array of the first projection holds the whole product x · W of the
    two arrays as the region finds them: entry (r, q) is the sum over k < 128 of x (r, k) · W (k, q). -/
theorem linear0_value (c : Dev nD) :
    (Gen.dat0 (F := Ideal) V c).arrAt 2 cfg0.N
      = Host.dotGeneral (F := Ideal) (φ₁ := .f32) (φ₂ := .f32) (DotDims.plain 100000 128 64) none (V c main_arg0) (V c main_arg3) :=
  (Gen.dat0 (F := Ideal) V c).arrAt_eq_of_cover 2 (product0 (V c main_arg0) (V c main_arg3))
    (fun t _ => flushed0_eq V c t) out_covered0

end Cert.KernelIdeal.RegionValue

end
-- ==== Proof.Linear2.lean ====
/-
  The second dense projection, x · W with x of 100000 rows and 64 columns and W of 64 rows and 32 columns,
  computed block by block: as one array.

  The rows of x are cut into ten blocks of 10000 rows; W is used whole at every block. At block t the body
  multiplies the block of x by W into a zero accumulator (rounding the operands to bf16 first, which on the
  extended reals changes nothing) and stores the 10000 × 32 result as block t of the output. Entry (j, q) of
  that result is the sum over k < 64 of x (10000 t + j, k) · W (k, q): it reads row 10000 t + j of x and all
  of W, and nothing else. The same sum is entry (10000 t + j, q) of the whole product x · W, so block t of the
  output is block t of the whole product; the ten blocks cover the 100000 rows (row r lies in block r / 10000),
  hence the output array ends holding the whole product.
-/
import proofs.«155394_j64733747085460_1_alg».proof.Proof.Gen.KernelIdeal.Frame
import proofs.«155394_j64733747085460_1_alg».proof.Proof.LibPlainDot
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The offsets of a whole-buffer access are zero on both axes. -/
theorem zero_offsets2 : (![0, 0] : Fin 2 → Nat) = fun _ => 0 := funext fun a => by fin_cases a <;> rfl

/-! ## One block of the product -/

/-- Entry (p, q) of what the body stores from a block `x0` of x and the whole of W, `x1`: the sum over k of
    x0 (p, k) · x1 (k, q). The cast of the block to its own shape and the two roundings to bf16 are the identity
    on the extended reals, and the product into the zero accumulator is the plain sum over the contracted axis. -/
theorem block_product2_apply (x0 : Vec Ideal S10000x64 .f32) (x1 : Vec Ideal S64x32 .f32) (p : Fin 10000) (q : Fin 32) :
    Gen.k2_pay1 (F := Ideal) x0 x1 (ix2 p q) = ∑ k : Fin 64, x0 (ix2 p k) * x1 (ix2 k q) := by
  unfold Gen.k2_pay1
  rw [shapeCast_self]
  exact Cert.LibPlainDot.matmul_zero_apply (M := 10000) (K := 64) (N := 32) none
    (truncf .bf16 x0 bitsLt_bf16_f32) (truncf .bf16 x1 bitsLt_bf16_f32) p q

variable (V : (c : Dev nD) → (b : Ref sig .tc) → Buf (Elt Ideal) ((c : Thread nD τ).loc b))

/-! ## Where a block sits in its array -/

/-- The printed index maps over the ten grid points: at point t the block of x and the block of the output are
    the t-th along the rows and the only one along the columns; W has one block, used at every point. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of block t of x is entry (10000 t + p, k) of x. -/
theorem x_block2_apply (c : Dev nD) (t : Fin cfg2.N) (p : Fin 10000) (k : Fin 64) (r : Fin 100000)
    (hr : r.val = t.val * 10000 + p.val) :
    (Gen.iblk2 V c 0 t : Vec Ideal S10000x64 .f32) (ix2 p k) = (V c main_v47 : Vec Ideal S100000x64 .f32) (ix2 r k) := by
  obtain ⟨e00, e01, -⟩ := block_index2 t
  unfold Gen.iblk2
  rw [View.read_apply]
  show V c main_v47 _ = V c main_v47 _
  refine congrArg (V c main_v47) ?_
  funext a; apply Fin.ext
  match a with
  | ⟨0, _⟩ => show win2_0.index t (0 : Fin 2) * 10000 + 1 * p.val = r.val; omega
  | ⟨1, _⟩ => show win2_0.index t (1 : Fin 2) * 64 + 1 * k.val = k.val; omega

/-- The one block of W is W. -/
theorem w_block2_apply (c : Dev nD) (t : Fin cfg2.N) (k : Fin 64) (q : Fin 32) :
    (Gen.iblk2 V c 1 t : Vec Ideal S64x32 .f32) (ix2 k q) = (V c main_arg5 : Vec Ideal S64x32 .f32) (ix2 k q) := by
  obtain ⟨-, -, e10, e11, -⟩ := block_index2 t
  unfold Gen.iblk2
  rw [View.read_apply]
  show V c main_arg5 _ = V c main_arg5 _
  refine congrArg (V c main_arg5) ?_
  funext a; apply Fin.ext
  match a with
  | ⟨0, _⟩ => show win2_1.index t (0 : Fin 2) * 64 + 1 * k.val = k.val; omega
  | ⟨1, _⟩ => show win2_1.index t (1 : Fin 2) * 32 + 1 * q.val = q.val; omega

/-- Entry (p, q) of block t of the output is entry (10000 t + p, q) of the output array. -/
theorem out_block2_emb (t : Fin cfg2.N) (p : Fin 10000) (q : Fin 32) (r : Fin 100000)
    (hr : r.val = t.val * 10000 + p.val) :
    ((cfg2.win 2).blk t).view.emb (ix2 p q) = (ix2 r q : S100000x32.Idx) := by
  obtain ⟨-, -, -, -, e20, e21⟩ := block_index2 t
  funext a; apply Fin.ext
  match a with
  | ⟨0, _⟩ => show win2_2.index t (0 : Fin 2) * 10000 + 1 * p.val = r.val; omega
  | ⟨1, _⟩ => show win2_2.index t (1 : Fin 2) * 32 + 1 * q.val = q.val; omega

/-! ## The whole product, and block t of it -/

/-- The whole product x · W of the two arrays, as the host computes it. -/
abbrev product2 (x : FVec Ideal S100000x64 .f32) (w : FVec Ideal S64x32 .f32) : FVec Ideal S100000x32 .f32 :=
  Host.dotGeneral (F := Ideal) (DotDims.plain 100000 64 32) none x w

/-- Entry (r, q) of the whole product: the sum over k of x (r, k) · W (k, q). -/
theorem product2_apply (x : FVec Ideal S100000x64 .f32) (w : FVec Ideal S64x32 .f32) (r : Fin 100000) (q : Fin 32) :
    product2 x w (ix2 r q) = ∑ k : Fin 64, x (ix2 r k) * w (ix2 k q) :=
  Cert.LibPlainDot.dotGeneral_apply (M := 100000) (K := 64) (N := 32) none .single x w r q

/-- What grid point t writes back is block t of the whole product: entry (p, q) of the block the body stores
    and entry (10000 t + p, q) of x · W are the same sum, over row 10000 t + p of x and column q of W. -/
theorem flushed2_eq (c : Dev nD) (t : Fin cfg2.N) :
    (Gen.dat2 (F := Ideal) V c).flushed 2 t
      = ((cfg2.win 2).blk t).view.read (Elt Ideal) (product2 (V c main_v47) (V c main_arg5)) := by
  show (cfg2.win 2).cut (grid2.coords t) ((Gen.dat2 (F := Ideal) V c).after 2 t) = _
  rw [Gen.after2_2]
  unfold Gen.out2_2
  rw [View.canon_unit_zero zero_offsets2]
  simp only [View.ld_unit_zero (S := S10000x64) zero_offsets2, View.ld_unit_zero (S := S64x32) zero_offsets2]
  have ht : t.val < 10 := lt_of_lt_of_eq t.isLt Gen.N_2
  refine funext fun (j : S10000x32.Idx) => ?_
  obtain ⟨p, q, rfl⟩ : ∃ (p : Fin 10000) (q : Fin 32), j = ix2 p q := ⟨j 0, j 1, eq_ix2 j⟩
  have hp : p.val < 10000 := p.isLt
  show Gen.k2_pay1 (F := Ideal) (Gen.iblk2 V c 0 t) (Gen.iblk2 V c 1 t) (ix2 p q)
      = product2 (V c main_v47) (V c main_arg5) (((cfg2.win 2).blk t).view.emb (ix2 p q))
  rw [out_block2_emb t p q ⟨t.val * 10000 + p.val, by omega⟩ rfl, product2_apply]
  refine (block_product2_apply _ _ p q).trans (Finset.sum_congr rfl fun k _ => ?_)
  rw [x_block2_apply V c t p k ⟨t.val * 10000 + p.val, by omega⟩ rfl, w_block2_apply V c t k q]

/-! ## The blocks cover the array -/

/-- An entry of the output array is in point t's block iff each coordinate is in the block's range on its axis. -/
theorem mem_out_block2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Row r of the output lies in the block of grid point r / 10000, and every point writes its block back. -/
theorem out_covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 10 := Gen.N_2
  let t : Fin cfg2.N := ⟨(i 0).val / 10000, by show (i 0).val / 10000 < grid2.N; omega⟩
  obtain ⟨-, -, -, -, e20, e21⟩ := block_index2 t
  have e20' : win2_2.index t (0 : Fin 2) = (i 0).val / 10000 := e20
  refine ⟨t, Gen.flush2_2 t, ?_⟩
  rw [mem_out_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-! ## The output array -/

/-- After the ten grid points the output array of the second projection holds the whole product x · W of the
    two arrays as the region finds them: entry (r, q) is the sum over k < 64 of x (r, k) · W (k, q). -/
theorem linear2_value (c : Dev nD) :
    (Gen.dat2 (F := Ideal) V c).arrAt 2 cfg2.N
      = Host.dotGeneral (F := Ideal) (φ₁ := .f32) (φ₂ := .f32) (DotDims.plain 100000 64 32) none (V c main_v47) (V c main_arg5) :=
  (Gen.dat2 (F := Ideal) V c).arrAt_eq_of_cover 2 (product2 (V c main_v47) (V c main_arg5))
    (fun t _ => flushed2_eq V c t) out_covered2

end Cert.KernelIdeal.RegionValue

end
-- ==== Proof.Linear4.lean ====
/-
  The third dense projection, tanh (x) · W with x of 100000 rows and 32 columns and W of 32 rows and 16 columns,
  computed block by block: as one array.

  The rows of x are cut into ten blocks of 10000 rows; W is used whole at every block. At block t the body
  applies tanh to every entry of the block of x and multiplies the result by W into a zero accumulator
  (rounding the operands to bf16 first, which on the extended reals changes nothing), and stores the
  10000 × 16 result as block t of the output. Entry (j, q) of that result is the sum over k < 32 of
  tanh (x (10000 t + j, k)) · W (k, q): it reads row 10000 t + j of x and all of W, and nothing else. The same
  sum is entry (10000 t + j, q) of the whole product tanh (x) · W, tanh taken entry by entry, so block t of the
  output is block t of the whole product; the ten blocks cover the 100000 rows (row r lies in block r / 10000),
  hence the output array ends holding the whole product.
-/
import proofs.«155394_j64733747085460_1_alg».proof.Proof.Gen.KernelIdeal.Frame
import proofs.«155394_j64733747085460_1_alg».proof.Proof.LibPlainDot
import Idealize.ShloMosaic.Lib.Pipeline.Value
import Idealize.ShloMosaic.Lib.ValueIdx

set_option maxRecDepth 16384

noncomputable section

open scoped BigOperators

namespace Cert.KernelIdeal.RegionValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The offsets of a whole-buffer access are zero on both axes. -/
theorem zero_offsets4 : (![0, 0] : Fin 2 → Nat) = fun _ => 0 := funext fun a => by fin_cases a <;> rfl

/-! ## One block of the product -/

/-- Entry (p, q) of what the body stores from a block `x0` of x and the whole of W, `x1`: the sum over k of
    tanh (x0 (p, k)) · x1 (k, q). The cast of the block to its own shape and the two roundings to bf16 are the
    identity on the extended reals, tanh acts entry by entry, and the product into the zero accumulator is the
    plain sum over the contracted axis. -/
theorem block_product4_apply (x0 : Vec Ideal S10000x32 .f32) (x1 : Vec Ideal S32x16 .f32) (p : Fin 10000) (q : Fin 16) :
    Gen.k4_pay1 (F := Ideal) x0 x1 (ix2 p q) = ∑ k : Fin 32, Ideal.tanh (x0 (ix2 p k)) * x1 (ix2 k q) := by
  unfold Gen.k4_pay1
  rw [shapeCast_self]
  exact Cert.LibPlainDot.matmul_zero_apply (M := 10000) (K := 32) (N := 16) none
    (truncf .bf16 (tanh x0) bitsLt_bf16_f32) (truncf .bf16 x1 bitsLt_bf16_f32) p q

variable (V : (c : Dev nD) → (b : Ref sig .tc) → Buf (Elt Ideal) ((c : Thread nD τ).loc b))

/-! ## Where a block sits in its array -/

/-- The printed index maps over the ten grid points: at point t the block of x and the block of the output are
    the t-th along the rows and the only one along the columns; W has one block, used at every point. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of block t of x is entry (10000 t + p, k) of x. -/
theorem x_block4_apply (c : Dev nD) (t : Fin cfg4.N) (p : Fin 10000) (k : Fin 32) (r : Fin 100000)
    (hr : r.val = t.val * 10000 + p.val) :
    (Gen.iblk4 V c 0 t : Vec Ideal S10000x32 .f32) (ix2 p k) = (V c main_v63 : Vec Ideal S100000x32 .f32) (ix2 r k) := by
  obtain ⟨e00, e01, -⟩ := block_index4 t
  unfold Gen.iblk4
  rw [View.read_apply]
  show V c main_v63 _ = V c main_v63 _
  refine congrArg (V c main_v63) ?_
  funext a; apply Fin.ext
  match a with
  | ⟨0, _⟩ => show win4_0.index t (0 : Fin 2) * 10000 + 1 * p.val = r.val; omega
  | ⟨1, _⟩ => show win4_0.index t (1 : Fin 2) * 32 + 1 * k.val = k.val; omega

/-- The one block of W is W. -/
theorem w_block4_apply (c : Dev nD) (t : Fin cfg4.N) (k : Fin 32) (q : Fin 16) :
    (Gen.iblk4 V c 1 t : Vec Ideal S32x16 .f32) (ix2 k q) = (V c main_arg7 : Vec Ideal S32x16 .f32) (ix2 k q) := by
  obtain ⟨-, -, e10, e11, -⟩ := block_index4 t
  unfold Gen.iblk4
  rw [View.read_apply]
  show V c main_arg7 _ = V c main_arg7 _
  refine congrArg (V c main_arg7) ?_
  funext a; apply Fin.ext
  match a with
  | ⟨0, _⟩ => show win4_1.index t (0 : Fin 2) * 32 + 1 * k.val = k.val; omega
  | ⟨1, _⟩ => show win4_1.index t (1 : Fin 2) * 16 + 1 * q.val = q.val; omega

/-- Entry (p, q) of block t of the output is entry (10000 t + p, q) of the output array. -/
theorem out_block4_emb (t : Fin cfg4.N) (p : Fin 10000) (q : Fin 16) (r : Fin 100000)
    (hr : r.val = t.val * 10000 + p.val) :
    ((cfg4.win 2).blk t).view.emb (ix2 p q) = (ix2 r q : S100000x16.Idx) := by
  obtain ⟨-, -, -, -, e20, e21⟩ := block_index4 t
  funext a; apply Fin.ext
  match a with
  | ⟨0, _⟩ => show win4_2.index t (0 : Fin 2) * 10000 + 1 * p.val = r.val; omega
  | ⟨1, _⟩ => show win4_2.index t (1 : Fin 2) * 16 + 1 * q.val = q.val; omega

/-! ## The whole product, and block t of it -/

/-- The whole product tanh (x) · W of the two arrays, as the host computes it (tanh entry by entry). -/
abbrev product4 (x : FVec Ideal S100000x32 .f32) (w : FVec Ideal S32x16 .f32) : FVec Ideal S100000x16 .f32 :=
  Host.dotGeneral (F := Ideal) (DotDims.plain 100000 32 16) none (Host.tanh (F := Ideal) x) w

/-- Entry (r, q) of the whole product: the sum over k of tanh (x (r, k)) · W (k, q). -/
theorem product4_apply (x : FVec Ideal S100000x32 .f32) (w : FVec Ideal S32x16 .f32) (r : Fin 100000) (q : Fin 16) :
    product4 x w (ix2 r q) = ∑ k : Fin 32, Ideal.tanh (x (ix2 r k)) * w (ix2 k q) :=
  Cert.LibPlainDot.dotGeneral_apply (M := 100000) (K := 32) (N := 16) none .single (Host.tanh (F := Ideal) x) w r q

/-- What grid point t writes back is block t of the whole product: entry (p, q) of the block the body stores
    and entry (10000 t + p, q) of tanh (x) · W are the same sum, over row 10000 t + p of x and column q of W. -/
theorem flushed4_eq (c : Dev nD) (t : Fin cfg4.N) :
    (Gen.dat4 (F := Ideal) V c).flushed 2 t
      = ((cfg4.win 2).blk t).view.read (Elt Ideal) (product4 (V c main_v63) (V c main_arg7)) := by
  show (cfg4.win 2).cut (grid4.coords t) ((Gen.dat4 (F := Ideal) V c).after 2 t) = _
  rw [Gen.after4_2]
  unfold Gen.out4_2
  rw [View.canon_unit_zero zero_offsets4]
  simp only [View.ld_unit_zero (S := S10000x32) zero_offsets4, View.ld_unit_zero (S := S32x16) zero_offsets4]
  have ht : t.val < 10 := lt_of_lt_of_eq t.isLt Gen.N_4
  refine funext fun (j : S10000x16.Idx) => ?_
  obtain ⟨p, q, rfl⟩ : ∃ (p : Fin 10000) (q : Fin 16), j = ix2 p q := ⟨j 0, j 1, eq_ix2 j⟩
  have hp : p.val < 10000 := p.isLt
  show Gen.k4_pay1 (F := Ideal) (Gen.iblk4 V c 0 t) (Gen.iblk4 V c 1 t) (ix2 p q)
      = product4 (V c main_v63) (V c main_arg7) (((cfg4.win 2).blk t).view.emb (ix2 p q))
  rw [out_block4_emb t p q ⟨t.val * 10000 + p.val, by omega⟩ rfl, product4_apply]
  refine (block_product4_apply _ _ p q).trans (Finset.sum_congr rfl fun k _ => ?_)
  rw [x_block4_apply V c t p k ⟨t.val * 10000 + p.val, by omega⟩ rfl, w_block4_apply V c t k q]

/-! ## The blocks cover the array -/

/-- An entry of the output array is in point t's block iff each coordinate is in the block's range on its axis. -/
theorem mem_out_block4 (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v64).slice (win4_2.rect t)).set ↔ _
  rw [View.set_slice_whole, Rect.mem_set_unit]
  exact Iff.rfl

/-- Row r of the output lies in the block of grid point r / 10000, and every point writes its block back. -/
theorem out_covered4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : grid4.N = 10 := Gen.N_4
  let t : Fin cfg4.N := ⟨(i 0).val / 10000, by show (i 0).val / 10000 < grid4.N; omega⟩
  obtain ⟨-, -, -, -, e20, e21⟩ := block_index4 t
  have e20' : win4_2.index t (0 : Fin 2) = (i 0).val / 10000 := e20
  refine ⟨t, Gen.flush4_2 t, ?_⟩
  rw [mem_out_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 16 ≤ (i 1).val ∧ (i 1).val < win4_2.index t (1 : Fin 2) * 16 + 16; omega

/-! ## The output array -/

/-- After the ten grid points the output array of the third projection holds the whole product tanh (x) · W of the
    two arrays as the region finds them: entry (r, q) is the sum over k < 32 of tanh (x (r, k)) · W (k, q). -/
theorem linear4_value (c : Dev nD) :
    (Gen.dat4 (F := Ideal) V c).arrAt 2 cfg4.N
      = Host.dotGeneral (F := Ideal) (φ₁ := .f32) (φ₂ := .f32) (DotDims.plain 100000 32 16) none (Host.tanh (F := Ideal) (s := S100000x32) (φ := .f32) (V c main_v63)) (V c main_arg7) :=
  (Gen.dat4 (F := Ideal) V c).arrAt_eq_of_cover 2 (product4 (V c main_v63) (V c main_arg7))
    (fun t _ => flushed4_eq V c t) out_covered4

end Cert.KernelIdeal.RegionValue

end
-- ==== Proof.Bias1.lean ====
/-
  The bias stage of layer 1, from its blocks to the whole array.

  The stage runs over a grid of 10 points. At point t the body holds rows 10000·t … 10000·t + 9999 of the
  [100000, 64] input x (one block of 10000 rows, all 64 columns) and the whole [1, 64] bias row b; it
  adds the row to every row of the block and applies tanh entry by entry, and the result is written back as rows
  10000·t … 10000·t + 9999 of the [100000, 64] output. Entry (p, q) of the block written at point t is
  tanh (x (10000·t + p, q) + b (0, q)): it depends on ONE entry of x, the one at the same position of the array, and on
  the bias entry of its column, and on nothing else. So every block written is the restriction to its rows of one
  function of the array index,
      (r, q) ↦ tanh (x (r, q) + b (0, q)),
  and since row r lies in the block of point r / 10000, the ten blocks cover the array: after the stage the output array
  IS that function. It is the same array as tanh (x + broadcast b), the row b repeated down the 100000 rows.
-/
import proofs.«155394_j64733747085460_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The function the output array ends holding -/

/-- The whole-array function of the stage: entry (r, q) is tanh (x (r, q) + b (0, q)) — the entry of x at the same
    position, plus the bias entry of column q, through tanh. -/
abbrev tanhAddRow64 (x : S100000x64.Idx → Elt Ideal .f32) (b : S1x64.Idx → Elt Ideal .f32) : S100000x64.Idx → Elt Ideal .f32 :=
  fun i => Ideal.tanh (x i + b (ix2 (0 : Fin 1) ⟨(i 1).val, (i 1).isLt⟩))

/-- The same array written with whole-array operations: tanh (x + broadcast b), where the broadcast repeats the one row
    of b down the 100000 rows (entry (r, q) of the broadcast is b (0, q): axis 0 of b has extent 1, axis 1 is kept). -/
theorem bias1_whole_array_form (hb : S1x64.BroadcastsInDim S100000x64 (![0, 1] : Fin 2 → Fin S100000x64.rank))
    (X : FVec Ideal S100000x64 .f32) (B : FVec Ideal S1x64 .f32) :
    Host.tanh (F := Ideal) (φ := .f32) (addf (F := Ideal) (φ := .f32) X (broadcastInDim S100000x64 ![0, 1] hb B)) = tanhAddRow64 X B := by
  funext i
  show Ideal.tanh (X i + broadcastInDim S100000x64 ![0, 1] hb B i) = Ideal.tanh (X i + B (ix2 (0 : Fin 1) ⟨(i 1).val, (i 1).isLt⟩))
  rw [broadcastInDim_apply ![0, 1] hb B i (ix2 (0 : Fin 1) ⟨(i 1).val, (i 1).isLt⟩) (fun a => by
    match a with
    | ⟨0, _⟩ => rfl
    | ⟨1, _⟩ => rfl)]

/-! ## One block: the body's arithmetic at an entry -/

/-- Entry (p, q) of what the body computes from a block x0 of 10000 rows and the bias row x1 is
    tanh (x0 (p, q) + x1 (0, q)): the two shape casts keep the shape, so they are the identity; the row broadcast to 10000 rows
    reads, at (p, q), the row's entry q; the addition and tanh are entry by entry. -/
theorem bias1_block_apply (x0 : Vec Ideal S10000x64 .f32) (x1 : Vec Ideal S1x64 .f32) (p : Fin 10000) (q : Fin 64) :
    Gen.k1_pay1 x0 x1 (ix2 p q) = Ideal.tanh (x0 (ix2 p q) + x1 (ix2 (0 : Fin 1) q)) := by
  unfold Gen.k1_pay1
  show Ideal.tanh (shapeCast S10000x64 x0 Facts₀.shapeCasts_S10000x64_S10000x64 (ix2 p q)
      + broadcastTo S10000x64 (shapeCast S1x64 x1 Facts₀.shapeCasts_S1x64_S1x64) Facts₀.broadcasts_S1x64_S10000x64 (ix2 p q)) = _
  rw [shapeCast_self, shapeCast_self, broadcastTo_1b_ab_apply]

/-- The entry's value depends only on WHERE x and b are read: equal positions, equal values. -/
theorem bias1_entry_congr (A : FVec Ideal S100000x64 .f32) (B : FVec Ideal S1x64 .f32) {i i' : S100000x64.Idx} {k k' : S1x64.Idx}
    (hi : i = i') (hk : k = k') : Ideal.tanh (A i + B k) = Ideal.tanh (A i' + B k') := by rw [hi, hk]

/-! ## Where the blocks lie -/

/-- The whole-buffer accesses of the body start at offset 0 on both axes. -/
theorem bias1_zero_offsets : (![0, 0] : Fin 2 → Nat) = fun _ => 0 := funext fun a => by fin_cases a <;> rfl

/-- The block indices at each of the 10 points (decided over the grid): the input block and the output block have the same
    row-block index and column-block index 0; the bias row's block is always block (0, 0), the whole row. -/
theorem bias1_blockIndex_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Each of the 10 row blocks of the output is some point's (decided over the grid). -/
theorem bias1_blockIndex_onto : ∀ r : Fin 10, ∃ t : Fin cfg1.N, win1_2.index t = ![r.val, 0] :=
  (by decide +kernel : ∀ r : Fin 10, ∃ t : Fin grid1.N, win1_2.index t = ![r.val, 0])

/-- An index of the output array is in point t's block iff, on each axis, its coordinate lies in the block's range:
    block index × block extent ≤ coordinate < block index × block extent + block extent. -/
theorem bias1_mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- THE BLOCKS COVER THE ARRAY: row r lies in the block of the point whose row-block index is r / 10000, since
    10000 · (r / 10000) ≤ r < 10000 · (r / 10000) + 10000, and every column lies in the one column block of 64. -/
theorem bias1_rows_covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := bias1_blockIndex_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [bias1_mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-! ## From the blocks to the array, at any contents of the buffers when the stage is entered -/

variable (V : (c : Dev nD) → (b : Ref sig .tc) → Buf (Elt Ideal) ((c : Thread nD τ).loc b))

/-- WHAT POINT t WRITES BACK is block t of `tanhAddRow64` of the two input arrays. The one store of the body covers its whole
    buffer, so the buffer holds the body's arithmetic of the two loaded blocks; at entry (p, q) that is
    tanh (x0 (p, q) + x1 (0, q)); entry (p, q) of the x block is array entry (block index · 10000 + p, 0 · 64 + q), the same
    position as entry (p, q) of the output block; entry (0, q) of the bias window's block is entry (0, q) of the bias row. -/
theorem bias1_flushed_eq (c : Dev nD) (t : Fin cfg1.N) :
    (Gen.dat1 (F := Ideal) V c).flushed 2 t
      = ((cfg1.win 2).blk t).view.read (Elt Ideal) (tanhAddRow64 (V c main_v45) (V c main_v46)) := by
  show (cfg1.win 2).cut (grid1.coords t) ((Gen.dat1 (F := Ideal) V c).after 2 t) = _
  rw [Gen.after1_2]
  unfold Gen.out1_2
  rw [View.canon_unit_zero bias1_zero_offsets]
  simp only [View.ld_unit_zero (S := S10000x64) bias1_zero_offsets, View.ld_unit_zero (S := S1x64) bias1_zero_offsets]
  obtain ⟨e0, e1, e2, e3, e4⟩ := bias1_blockIndex_facts t
  funext j
  obtain ⟨p, q, rfl⟩ : ∃ (p : Fin 10000) (q : Fin 64), j = ix2 p q := ⟨j 0, j 1, eq_ix2 j⟩
  refine (bias1_block_apply (Gen.iblk1 V c 0 t) (Gen.iblk1 V c 1 t) p q).trans ?_
  -- the x block and the output block sit at the same place of their arrays
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  -- the bias window's block is the whole row: its entry (0, q) is the row's entry at the output entry's column
  have h1 : ((cfg1.win 1).blk t).view.emb (ix2 (0 : Fin 1) q)
      = ix2 (0 : Fin 1) ⟨((((cfg1.win 2).blk t).view.emb (ix2 p q)) 1).val, ((((cfg1.win 2).blk t).view.emb (ix2 p q)) 1).isLt⟩ := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact bias1_entry_congr (V c main_v45) (V c main_v46) h0 h1

/-- THE OUTPUT ARRAY AFTER THE STAGE, entry by entry: entry (r, q) is tanh (x (r, q) + b (0, q)), x and b the
    input array and the bias row as the stage finds them. Every point writes back its block of that function, and the
    blocks cover the array. -/
theorem bias1_value_entrywise (c : Dev nD) :
    (Gen.dat1 (F := Ideal) V c).arrAt 2 cfg1.N = tanhAddRow64 (V c main_v45) (V c main_v46) :=
  (Gen.dat1 (F := Ideal) V c).arrAt_eq_of_cover 2 (tanhAddRow64 (V c main_v45) (V c main_v46))
    (fun t _ => bias1_flushed_eq V c t) bias1_rows_covered

/-- THE OUTPUT ARRAY AFTER THE STAGE, in whole-array operations: tanh (x + broadcast b), the bias row repeated down the
    100000 rows. -/
theorem bias1_value (c : Dev nD) (hb : S1x64.BroadcastsInDim S100000x64 (![0, 1] : Fin 2 → Fin S100000x64.rank)) :
    (Gen.dat1 (F := Ideal) V c).arrAt 2 cfg1.N
      = Host.tanh (F := Ideal) (φ := .f32) (addf (F := Ideal) (φ := .f32) (V c main_v45) (broadcastInDim S100000x64 ![0, 1] hb (V c main_v46))) :=
  (bias1_value_entrywise V c).trans (bias1_whole_array_form hb _ _).symm

end Cert.KernelIdeal.RegionValue

end
-- ==== Proof.Bias3.lean ====
/-
  The bias stage of layer 2, from its blocks to the whole array.

  The stage runs over a grid of 10 points. At point t the body holds rows 10000·t … 10000·t + 9999 of the
  [100000, 32] input x (one block of 10000 rows, all 32 columns) and the whole [1, 32] bias row b; it
  adds the row to every row of the block, and the result is written back as rows
  10000·t … 10000·t + 9999 of the [100000, 32] output. Entry (p, q) of the block written at point t is
  x (10000·t + p, q) + b (0, q): it depends on ONE entry of x, the one at the same position of the array, and on
  the bias entry of its column, and on nothing else. So every block written is the restriction to its rows of one
  function of the array index,
      (r, q) ↦ x (r, q) + b (0, q),
  and since row r lies in the block of point r / 10000, the ten blocks cover the array: after the stage the output array
  IS that function. It is the same array as x + broadcast b, the row b repeated down the 100000 rows.
-/
import proofs.«155394_j64733747085460_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The function the output array ends holding -/

/-- The whole-array function of the stage: entry (r, q) is x (r, q) + b (0, q) — the entry of x at the same
    position plus the bias entry of column q. -/
abbrev addRow32 (x : S100000x32.Idx → Elt Ideal .f32) (b : S1x32.Idx → Elt Ideal .f32) : S100000x32.Idx → Elt Ideal .f32 :=
  fun i => x i + b (ix2 (0 : Fin 1) ⟨(i 1).val, (i 1).isLt⟩)

/-- The same array written with whole-array operations: x + broadcast b, where the broadcast repeats the one row
    of b down the 100000 rows (entry (r, q) of the broadcast is b (0, q): axis 0 of b has extent 1, axis 1 is kept). -/
theorem bias3_whole_array_form (hb : S1x32.BroadcastsInDim S100000x32 (![0, 1] : Fin 2 → Fin S100000x32.rank))
    (X : FVec Ideal S100000x32 .f32) (B : FVec Ideal S1x32 .f32) :
    addf (F := Ideal) (φ := .f32) X (broadcastInDim S100000x32 ![0, 1] hb B) = addRow32 X B := by
  funext i
  show X i + broadcastInDim S100000x32 ![0, 1] hb B i = X i + B (ix2 (0 : Fin 1) ⟨(i 1).val, (i 1).isLt⟩)
  rw [broadcastInDim_apply ![0, 1] hb B i (ix2 (0 : Fin 1) ⟨(i 1).val, (i 1).isLt⟩) (fun a => by
    match a with
    | ⟨0, _⟩ => rfl
    | ⟨1, _⟩ => rfl)]

/-! ## One block: the body's arithmetic at an entry -/

/-- Entry (p, q) of what the body computes from a block x0 of 10000 rows and the bias row x1 is
    x0 (p, q) + x1 (0, q): the two shape casts keep the shape, so they are the identity; the row broadcast to 10000 rows
    reads, at (p, q), the row's entry q; the addition is entry by entry. -/
theorem bias3_block_apply (x0 : Vec Ideal S10000x32 .f32) (x1 : Vec Ideal S1x32 .f32) (p : Fin 10000) (q : Fin 32) :
    Gen.k3_pay1 x0 x1 (ix2 p q) = x0 (ix2 p q) + x1 (ix2 (0 : Fin 1) q) := by
  unfold Gen.k3_pay1
  show shapeCast S10000x32 x0 Facts₀.shapeCasts_S10000x32_S10000x32 (ix2 p q)
      + broadcastTo S10000x32 (shapeCast S1x32 x1 Facts₀.shapeCasts_S1x32_S1x32) Facts₀.broadcasts_S1x32_S10000x32 (ix2 p q) = _
  rw [shapeCast_self, shapeCast_self, broadcastTo_1b_ab_apply]

/-- The entry's value depends only on WHERE x and b are read: equal positions, equal values. -/
theorem bias3_entry_congr (A : FVec Ideal S100000x32 .f32) (B : FVec Ideal S1x32 .f32) {i i' : S100000x32.Idx} {k k' : S1x32.Idx}
    (hi : i = i') (hk : k = k') : A i + B k = A i' + B k' := by rw [hi, hk]

/-! ## Where the blocks lie -/

/-- The whole-buffer accesses of the body start at offset 0 on both axes. -/
theorem bias3_zero_offsets : (![0, 0] : Fin 2 → Nat) = fun _ => 0 := funext fun a => by fin_cases a <;> rfl

/-- The block indices at each of the 10 points (decided over the grid): the input block and the output block have the same
    row-block index and column-block index 0; the bias row's block is always block (0, 0), the whole row. -/
theorem bias3_blockIndex_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Each of the 10 row blocks of the output is some point's (decided over the grid). -/
theorem bias3_blockIndex_onto : ∀ r : Fin 10, ∃ t : Fin cfg3.N, win3_2.index t = ![r.val, 0] :=
  (by decide +kernel : ∀ r : Fin 10, ∃ t : Fin grid3.N, win3_2.index t = ![r.val, 0])

/-- An index of the output array is in point t's block iff, on each axis, its coordinate lies in the block's range:
    block index × block extent ≤ coordinate < block index × block extent + block extent. -/
theorem bias3_mem_block (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v63).slice (win3_2.rect t)).set ↔ _
  rw [View.set_slice_whole, Rect.mem_set_unit]
  exact Iff.rfl

/-- THE BLOCKS COVER THE ARRAY: row r lies in the block of the point whose row-block index is r / 10000, since
    10000 · (r / 10000) ≤ r < 10000 · (r / 10000) + 10000, and every column lies in the one column block of 32. -/
theorem bias3_rows_covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := bias3_blockIndex_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [bias3_mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-! ## From the blocks to the array, at any contents of the buffers when the stage is entered -/

variable (V : (c : Dev nD) → (b : Ref sig .tc) → Buf (Elt Ideal) ((c : Thread nD τ).loc b))

/-- WHAT POINT t WRITES BACK is block t of `addRow32` of the two input arrays. The one store of the body covers its whole
    buffer, so the buffer holds the body's arithmetic of the two loaded blocks; at entry (p, q) that is
    x0 (p, q) + x1 (0, q); entry (p, q) of the x block is array entry (block index · 10000 + p, 0 · 32 + q), the same
    position as entry (p, q) of the output block; entry (0, q) of the bias window's block is entry (0, q) of the bias row. -/
theorem bias3_flushed_eq (c : Dev nD) (t : Fin cfg3.N) :
    (Gen.dat3 (F := Ideal) V c).flushed 2 t
      = ((cfg3.win 2).blk t).view.read (Elt Ideal) (addRow32 (V c main_v61) (V c main_v62)) := by
  show (cfg3.win 2).cut (grid3.coords t) ((Gen.dat3 (F := Ideal) V c).after 2 t) = _
  rw [Gen.after3_2]
  unfold Gen.out3_2
  rw [View.canon_unit_zero bias3_zero_offsets]
  simp only [View.ld_unit_zero (S := S10000x32) bias3_zero_offsets, View.ld_unit_zero (S := S1x32) bias3_zero_offsets]
  obtain ⟨e0, e1, e2, e3, e4⟩ := bias3_blockIndex_facts t
  funext j
  obtain ⟨p, q, rfl⟩ : ∃ (p : Fin 10000) (q : Fin 32), j = ix2 p q := ⟨j 0, j 1, eq_ix2 j⟩
  refine (bias3_block_apply (Gen.iblk3 V c 0 t) (Gen.iblk3 V c 1 t) p q).trans ?_
  -- the x block and the output block sit at the same place of their arrays
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  -- the bias window's block is the whole row: its entry (0, q) is the row's entry at the output entry's column
  have h1 : ((cfg3.win 1).blk t).view.emb (ix2 (0 : Fin 1) q)
      = ix2 (0 : Fin 1) ⟨((((cfg3.win 2).blk t).view.emb (ix2 p q)) 1).val, ((((cfg3.win 2).blk t).view.emb (ix2 p q)) 1).isLt⟩ := by
    funext a; apply Fin.ext
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  exact bias3_entry_congr (V c main_v61) (V c main_v62) h0 h1

/-- THE OUTPUT ARRAY AFTER THE STAGE, entry by entry: entry (r, q) is x (r, q) + b (0, q), x and b the
    input array and the bias row as the stage finds them. Every point writes back its block of that function, and the
    blocks cover the array. -/
theorem bias3_value_entrywise (c : Dev nD) :
    (Gen.dat3 (F := Ideal) V c).arrAt 2 cfg3.N = addRow32 (V c main_v61) (V c main_v62) :=
  (Gen.dat3 (F := Ideal) V c).arrAt_eq_of_cover 2 (addRow32 (V c main_v61) (V c main_v62))
    (fun t _ => bias3_flushed_eq V c t) bias3_rows_covered

/-- THE OUTPUT ARRAY AFTER THE STAGE, in whole-array operations: x + broadcast b, the bias row repeated down the
    100000 rows. -/
theorem bias3_value (c : Dev nD) (hb : S1x32.BroadcastsInDim S100000x32 (![0, 1] : Fin 2 → Fin S100000x32.rank)) :
    (Gen.dat3 (F := Ideal) V c).arrAt 2 cfg3.N
      = addf (F := Ideal) (φ := .f32) (V c main_v61) (broadcastInDim S100000x32 ![0, 1] hb (V c main_v62)) :=
  (bias3_value_entrywise V c).trans (bias3_whole_array_form hb _ _).symm

end Cert.KernelIdeal.RegionValue

end
-- ==== Proof.Bias5.lean ====
/-
  The bias stage of layer 3, from its blocks to the whole array.

  The stage runs over a grid of 10 points. At point t the body holds rows 10000·t … 10000·t + 9999 of the
  [100000, 16] input x (one block of 10000 rows, all 16 columns) and the whole [1, 16] bias row b; it
  adds the row to every row of the block, and the result is written back as rows
  10000·t … 10000·t + 9999 of the [100000, 16] output. Entry (p, q) of the block written at point t is
  x (10000·t + p, q) + b (0, q): it depends on ONE entry of x, the one at the same position of the array, and on
  the bias entry of its column, and on nothing else. So every block written is the restriction to its rows of one
  function of the array index,
      (r, q) ↦ x (r, q) + b (0, q),
  and since row r lies in the block of point r / 10000, the ten blocks cover the array: after the stage the output array
  IS that function. It is the same array as x + broadcast b, the row b repeated down the 100000 rows.
-/
import proofs.«155394_j64733747085460_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The function the output array ends holding -/

/-- The whole-array function of the stage: entry (r, q) is x (r, q) + b (0, q) — the entry of x at the same
    position plus the bias entry of column q. -/
abbrev addRow16 (x : S100000x16.Idx → Elt Ideal .f32) (b : S1x16.Idx → Elt Ideal .f32) : S100000x16.Idx → Elt Ideal .f32 :=
  fun i => x i + b (ix2 (0 : Fin 1) ⟨(i 1).val, (i 1).isLt⟩)

/-- The same array written with whole-array operations: x + broadcast b, where the broadcast repeats the one row
    of b down the 100000 rows (entry (r, q) of the broadcast is b (0, q): axis 0 of b has extent 1, axis 1 is kept). -/
theorem bias5_whole_array_form (hb : S1x16.BroadcastsInDim S100000x16 (![0, 1] : Fin 2 → Fin S100000x16.rank))
    (X : FVec Ideal S100000x16 .f32) (B : FVec Ideal S1x16 .f32) :
    addf (F := Ideal) (φ := .f32) X (broadcastInDim S100000x16 ![0, 1] hb B) = addRow16 X B := by
  funext i
  show X i + broadcastInDim S100000x16 ![0, 1] hb B i = X i + B (ix2 (0 : Fin 1) ⟨(i 1).val, (i 1).isLt⟩)
  rw [broadcastInDim_apply ![0, 1] hb B i (ix2 (0 : Fin 1) ⟨(i 1).val, (i 1).isLt⟩) (fun a => by
    match a with
    | ⟨0, _⟩ => rfl
    | ⟨1, _⟩ => rfl)]

/-! ## One block: the body's arithmetic at an entry -/

/-- Entry (p, q) of what the body computes from a block x0 of 10000 rows and the bias row x1 is
    x0 (p, q) + x1 (0, q): the two shape casts keep the shape, so they are the identity; the row broadcast to 10000 rows
    reads, at (p, q), the row's entry q; the addition is entry by entry. -/
theorem bias5_block_apply (x0 : Vec Ideal S10000x16 .f32) (x1 : Vec Ideal S1x16 .f32) (p : Fin 10000) (q : Fin 16) :
    Gen.k5_pay1 x0 x1 (ix2 p q) = x0 (ix2 p q) + x1 (ix2 (0 : Fin 1) q) := by
  unfold Gen.k5_pay1
  show shapeCast S10000x16 x0 Facts₀.shapeCasts_S10000x16_S10000x16 (ix2 p q)
      + broadcastTo S10000x16 (shapeCast S1x16 x1 Facts₀.shapeCasts_S1x16_S1x16) Facts₀.broadcasts_S1x16_S10000x16 (ix2 p q) = _
  rw [shapeCast_self, shapeCast_self, broadcastTo_1b_ab_apply]

/-- The entry's value depends only on WHERE x and b are read: equal positions, equal values. -/
theorem bias5_entry_congr (A : FVec Ideal S100000x16 .f32) (B : FVec Ideal S1x16 .f32) {i i' : S100000x16.Idx} {k k' : S1x16.Idx}
    (hi : i = i') (hk : k = k') : A i + B k = A i' + B k' := by rw [hi, hk]

/-! ## Where the blocks lie -/

/-- The whole-buffer accesses of the body start at offset 0 on both axes. -/
theorem bias5_zero_offsets : (![0, 0] : Fin 2 → Nat) = fun _ => 0 := funext fun a => by fin_cases a <;> rfl

/-- The block indices at each of the 10 points (decided over the grid): the input block and the output block have the same
    row-block index and column-block index 0; the bias row's block is always block (0, 0), the whole row. -/
theorem bias5_blockIndex_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Each of the 10 row blocks of the output is some point's (decided over the grid). -/
theorem bias5_blockIndex_onto : ∀ r : Fin 10, ∃ t : Fin cfg5.N, win5_2.index t = ![r.val, 0] :=
  (by decide +kernel : ∀ r : Fin 10, ∃ t : Fin grid5.N, win5_2.index t = ![r.val, 0])

/-- An index of the output array is in point t's block iff, on each axis, its coordinate lies in the block's range:
    block index × block extent ≤ coordinate < block index × block extent + block extent. -/
theorem bias5_mem_block (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v79).slice (win5_2.rect t)).set ↔ _
  rw [View.set_slice_whole, Rect.mem_set_unit]
  exact Iff.rfl

/-- THE BLOCKS COVER THE ARRAY: row r lies in the block of the point whose row-block index is r / 10000, since
    10000 · (r / 10000) ≤ r < 10000 · (r / 10000) + 10000, and every column lies in the one column block of 16. -/
theorem bias5_rows_covered (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  obtain ⟨t, ht⟩ := bias5_blockIndex_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [bias5_mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 16 ≤ (i 1).val ∧ (i 1).val < win5_2.index t (1 : Fin 2) * 16 + 16; omega

/-! ## From the blocks to the array, at any contents of the buffers when the stage is entered -/

variable (V : (c : Dev nD) → (b : Ref sig .tc) → Buf (Elt Ideal) ((c : Thread nD τ).loc b))

/-- WHAT POINT t WRITES BACK is block t of `addRow16` of the two input arrays. The one store of the body covers its whole
    buffer, so the buffer holds the body's arithmetic of the two loaded blocks; at entry (p, q) that is
    x0 (p, q) + x1 (0, q); entry (p, q) of the x block is array entry (block index · 10000 + p, 0 · 16 + q), the same
    position as entry (p, q) of the output block; entry (0, q) of the bias window's block is entry (0, q) of the bias row. -/
theorem bias5_flushed_eq (c : Dev nD) (t : Fin cfg5.N) :
    (Gen.dat5 (F := Ideal) V c).flushed 2 t
      = ((cfg5.win 2).blk t).view.read (Elt Ideal) (addRow16 (V c main_v77) (V c main_v78)) := by
  show (cfg5.win 2).cut (grid5.coords t) ((Gen.dat5 (F := Ideal) V c).after 2 t) = _
  rw [Gen.after5_2]
  unfold Gen.out5_2
  rw [View.canon_unit_zero bias5_zero_offsets]
  simp only [View.ld_unit_zero (S := S10000x16) bias5_zero_offsets, View.ld_unit_zero (S := S1x16) bias5_zero_offsets]
  obtain ⟨e0, e1, e2, e3, e4⟩ := bias5_blockIndex_facts t
  funext j
  obtain ⟨p, q, rfl⟩ : ∃ (p : Fin 10000) (q : Fin 16), j = ix2 p q := ⟨j 0, j 1, eq_ix2 j⟩
  refine (bias5_block_apply (Gen.iblk5 V c 0 t) (Gen.iblk5 V c 1 t) p q).trans ?_
  -- the x block and the output block sit at the same place of their arrays
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 16 + 1 * q.val = win5_2.index t (1 : Fin 2) * 16 + 1 * q.val; omega
  -- the bias window's block is the whole row: its entry (0, q) is the row's entry at the output entry's column
  have h1 : ((cfg5.win 1).blk t).view.emb (ix2 (0 : Fin 1) q)
      = ix2 (0 : Fin 1) ⟨((((cfg5.win 2).blk t).view.emb (ix2 p q)) 1).val, ((((cfg5.win 2).blk t).view.emb (ix2 p q)) 1).isLt⟩ := by
    funext a; apply Fin.ext
    match a with
    | ⟨0, _⟩ => show win5_1.index t (0 : Fin 2) * 1 + 1 * 0 = 0; omega
    | ⟨1, _⟩ => show win5_1.index t (1 : Fin 2) * 16 + 1 * q.val = win5_2.index t (1 : Fin 2) * 16 + 1 * q.val; omega
  exact bias5_entry_congr (V c main_v77) (V c main_v78) h0 h1

/-- THE OUTPUT ARRAY AFTER THE STAGE, entry by entry: entry (r, q) is x (r, q) + b (0, q), x and b the
    input array and the bias row as the stage finds them. Every point writes back its block of that function, and the
    blocks cover the array. -/
theorem bias5_value_entrywise (c : Dev nD) :
    (Gen.dat5 (F := Ideal) V c).arrAt 2 cfg5.N = addRow16 (V c main_v77) (V c main_v78) :=
  (Gen.dat5 (F := Ideal) V c).arrAt_eq_of_cover 2 (addRow16 (V c main_v77) (V c main_v78))
    (fun t _ => bias5_flushed_eq V c t) bias5_rows_covered

/-- THE OUTPUT ARRAY AFTER THE STAGE, in whole-array operations: x + broadcast b, the bias row repeated down the
    100000 rows. -/
theorem bias5_value (c : Dev nD) (hb : S1x16.BroadcastsInDim S100000x16 (![0, 1] : Fin 2 → Fin S100000x16.rank)) :
    (Gen.dat5 (F := Ideal) V c).arrAt 2 cfg5.N
      = addf (F := Ideal) (φ := .f32) (V c main_v77) (broadcastInDim S100000x16 ![0, 1] hb (V c main_v78)) :=
  (bias5_value_entrywise V c).trans (bias5_whole_array_form hb _ _).symm

end Cert.KernelIdeal.RegionValue

end
-- ==== Proof.Carried.lean ====
/-
  Buffers that keep their contents from one boundary of the run to a later one.

  The run is a chain of segments: stretches of host operations, and pipelined regions. A stretch of host
  operations changes only the buffers its operations write. A region changes only its output arrays: an input
  array is read through its window and left as found, and a buffer that is none of the region's arrays is not
  touched. So a buffer that no segment between two boundaries writes holds the same contents at both.

  Used here for: each argument array, which still holds the launch memory's contents when the segment that uses
  it begins; the vectors of source nodes, of target nodes and of normalised edge weights that the host computes
  before the first region, which every later stretch reads again; and the array the second bias stage leaves,
  which the segments after it read and do not write.
-/
import proofs.«155394_j64733747085460_1_alg».proof.Proof.Gen.KernelIdeal.Frame

set_option maxRecDepth 16384

noncomputable section

namespace Cert.KernelIdeal.Carried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg) (c : Dev nD)

/-- A stretch of host operations leaves a buffer that none of them writes as it was: the stretch's operations
    are listed, each one's written buffer is read off, and each is another buffer than the one kept. -/
macro "kept_by_host " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The argument arrays, from the launch to the segment that uses them

The host operations before the first region build the index vectors and the edge weights and write no
argument; each later stretch writes only its own intermediate values; a region that comes before an
argument's use does not have it among its arrays. -/

/-- The node features x are as launched when the first region begins: none of the host operations before it
    writes an argument. -/
theorem W3_arg0 : W3 m ρ c (Proc.devRef .tc main_arg0) = m ((c : Thread nD τ).loc main_arg0) :=
  calc W3 m ρ c (Proc.devRef .tc main_arg0)
    _ = W2 m ρ c (Proc.devRef .tc main_arg0) := kept_by_host hostOps0_2 main_arg0
    _ = W1 m ρ c (Proc.devRef .tc main_arg0) := kept_by_host hostOps0_1 main_arg0
    _ = W0 m ρ c (Proc.devRef .tc main_arg0) := kept_by_host hostOps0 main_arg0
    _ = m ((c : Thread nD τ).loc main_arg0) := rfl

/-- The first layer's weight matrix is as launched when the first region begins: none of the host operations before it
    writes an argument. -/
theorem W3_arg3 : W3 m ρ c (Proc.devRef .tc main_arg3) = m ((c : Thread nD τ).loc main_arg3) :=
  calc W3 m ρ c (Proc.devRef .tc main_arg3)
    _ = W2 m ρ c (Proc.devRef .tc main_arg3) := kept_by_host hostOps0_2 main_arg3
    _ = W1 m ρ c (Proc.devRef .tc main_arg3) := kept_by_host hostOps0_1 main_arg3
    _ = W0 m ρ c (Proc.devRef .tc main_arg3) := kept_by_host hostOps0 main_arg3
    _ = m ((c : Thread nD τ).loc main_arg3) := rfl

/-- The first layer's bias is as launched when the first region begins: none of the host operations before it
    writes an argument. -/
theorem W3_arg4 : W3 m ρ c (Proc.devRef .tc main_arg4) = m ((c : Thread nD τ).loc main_arg4) :=
  calc W3 m ρ c (Proc.devRef .tc main_arg4)
    _ = W2 m ρ c (Proc.devRef .tc main_arg4) := kept_by_host hostOps0_2 main_arg4
    _ = W1 m ρ c (Proc.devRef .tc main_arg4) := kept_by_host hostOps0_1 main_arg4
    _ = W0 m ρ c (Proc.devRef .tc main_arg4) := kept_by_host hostOps0 main_arg4
    _ = m ((c : Thread nD τ).loc main_arg4) := rfl

/-- The first layer's bias is as launched when the first projection ends: it is none of that region's arrays. -/
theorem W4_arg4 : W4 m ρ c (Proc.devRef .tc main_arg4) = m ((c : Thread nD τ).loc main_arg4) :=
  (W4_of_ne m ρ c main_arg4 (by decide)).trans (W3_arg4 m ρ c)

/-- The second layer's weight matrix is as launched when the first region begins: none of the host operations before it
    writes an argument. -/
theorem W3_arg5 : W3 m ρ c (Proc.devRef .tc main_arg5) = m ((c : Thread nD τ).loc main_arg5) :=
  calc W3 m ρ c (Proc.devRef .tc main_arg5)
    _ = W2 m ρ c (Proc.devRef .tc main_arg5) := kept_by_host hostOps0_2 main_arg5
    _ = W1 m ρ c (Proc.devRef .tc main_arg5) := kept_by_host hostOps0_1 main_arg5
    _ = W0 m ρ c (Proc.devRef .tc main_arg5) := kept_by_host hostOps0 main_arg5
    _ = m ((c : Thread nD τ).loc main_arg5) := rfl

/-- The second layer's weight matrix is as launched when the second projection begins: the first projection, the
    host operations after it and the first bias stage do not write it. -/
theorem W6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := kept_by_host hostOps1 main_arg5
    _ = W3 m ρ c (Proc.devRef .tc main_arg5) := W4_of_ne m ρ c main_arg5 (by decide)
    _ = m ((c : Thread nD τ).loc main_arg5) := W3_arg5 m ρ c

/-- The second layer's bias is as launched when the first region begins: none of the host operations before it
    writes an argument. -/
theorem W3_arg6 : W3 m ρ c (Proc.devRef .tc main_arg6) = m ((c : Thread nD τ).loc main_arg6) :=
  calc W3 m ρ c (Proc.devRef .tc main_arg6)
    _ = W2 m ρ c (Proc.devRef .tc main_arg6) := kept_by_host hostOps0_2 main_arg6
    _ = W1 m ρ c (Proc.devRef .tc main_arg6) := kept_by_host hostOps0_1 main_arg6
    _ = W0 m ρ c (Proc.devRef .tc main_arg6) := kept_by_host hostOps0 main_arg6
    _ = m ((c : Thread nD τ).loc main_arg6) := rfl

/-- The second layer's bias is as launched when the second projection ends: no segment up to there writes it. -/
theorem W7_arg6 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := kept_by_host hostOps1 main_arg6
    _ = W3 m ρ c (Proc.devRef .tc main_arg6) := W4_of_ne m ρ c main_arg6 (by decide)
    _ = m ((c : Thread nD τ).loc main_arg6) := W3_arg6 m ρ c

/-- The third layer's weight matrix is as launched when the first region begins: none of the host operations before it
    writes an argument. -/
theorem W3_arg7 : W3 m ρ c (Proc.devRef .tc main_arg7) = m ((c : Thread nD τ).loc main_arg7) :=
  calc W3 m ρ c (Proc.devRef .tc main_arg7)
    _ = W2 m ρ c (Proc.devRef .tc main_arg7) := kept_by_host hostOps0_2 main_arg7
    _ = W1 m ρ c (Proc.devRef .tc main_arg7) := kept_by_host hostOps0_1 main_arg7
    _ = W0 m ρ c (Proc.devRef .tc main_arg7) := kept_by_host hostOps0 main_arg7
    _ = m ((c : Thread nD τ).loc main_arg7) := rfl

/-- The third layer's weight matrix is as launched when the third projection begins: no segment up to there
    writes it. -/
theorem W9_arg7 : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := kept_by_host hostOps3 main_arg7
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := kept_by_host hostOps1 main_arg7
    _ = W3 m ρ c (Proc.devRef .tc main_arg7) := W4_of_ne m ρ c main_arg7 (by decide)
    _ = m ((c : Thread nD τ).loc main_arg7) := W3_arg7 m ρ c

/-- The third layer's bias is as launched when the first region begins: none of the host operations before it
    writes an argument. -/
theorem W3_arg8 : W3 m ρ c (Proc.devRef .tc main_arg8) = m ((c : Thread nD τ).loc main_arg8) :=
  calc W3 m ρ c (Proc.devRef .tc main_arg8)
    _ = W2 m ρ c (Proc.devRef .tc main_arg8) := kept_by_host hostOps0_2 main_arg8
    _ = W1 m ρ c (Proc.devRef .tc main_arg8) := kept_by_host hostOps0_1 main_arg8
    _ = W0 m ρ c (Proc.devRef .tc main_arg8) := kept_by_host hostOps0 main_arg8
    _ = m ((c : Thread nD τ).loc main_arg8) := rfl

/-- The third layer's bias is as launched when the third projection ends: no segment up to there writes it. -/
theorem W10_arg8 : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := kept_by_host hostOps3 main_arg8
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := kept_by_host hostOps1 main_arg8
    _ = W3 m ρ c (Proc.devRef .tc main_arg8) := W4_of_ne m ρ c main_arg8 (by decide)
    _ = m ((c : Thread nD τ).loc main_arg8) := W3_arg8 m ρ c

/-! ## The index vectors and the edge weights, from the first region's entry on

The host computes them once, before the first region: the edges' source nodes and target nodes, each with one
self-loop per node appended, and the normalised edge weights. Each later stretch of host operations reads them
again (for its gather and its scatter-add) and writes other buffers, and no region has them among its arrays. -/

/-- The vector of source nodes is the same after the first projection as before it: it is none of that region's arrays. -/
theorem W4_v5 : W4 m ρ c (Proc.devRef .tc main_v5) = W3 m ρ c (Proc.devRef .tc main_v5) :=
  W4_of_ne m ρ c main_v5 (by decide)

/-- The vector of source nodes is the same after the second projection as before the first: the first layer's host
    operations write other buffers, and it is no array of the first bias stage or of the second projection. -/
theorem W7_v5 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := kept_by_host hostOps1 main_v5
    _ = W3 m ρ c (Proc.devRef .tc main_v5) := W4_v5 m ρ c

/-- The vector of source nodes is the same after the third projection as before the first: the second layer's host
    operations write other buffers, and it is no array of the second bias stage or of the third projection. -/
theorem W10_v5 : W10 m ρ c (Proc.devRef .tc main_v5) = W3 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := kept_by_host hostOps3 main_v5
    _ = W3 m ρ c (Proc.devRef .tc main_v5) := W7_v5 m ρ c

/-- The vector of target nodes is the same after the first projection as before it: it is none of that region's arrays. -/
theorem W4_v6 : W4 m ρ c (Proc.devRef .tc main_v6) = W3 m ρ c (Proc.devRef .tc main_v6) :=
  W4_of_ne m ρ c main_v6 (by decide)

/-- The vector of target nodes is the same after the second projection as before the first: the first layer's host
    operations write other buffers, and it is no array of the first bias stage or of the second projection. -/
theorem W7_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := kept_by_host hostOps1 main_v6
    _ = W3 m ρ c (Proc.devRef .tc main_v6) := W4_v6 m ρ c

/-- The vector of target nodes is the same after the third projection as before the first: the second layer's host
    operations write other buffers, and it is no array of the second bias stage or of the third projection. -/
theorem W10_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := kept_by_host hostOps3 main_v6
    _ = W3 m ρ c (Proc.devRef .tc main_v6) := W7_v6 m ρ c

/-- The vector of normalised edge weights is the same after the first projection as before it: it is none of that region's arrays. -/
theorem W4_v31 : W4 m ρ c (Proc.devRef .tc main_v31) = W3 m ρ c (Proc.devRef .tc main_v31) :=
  W4_of_ne m ρ c main_v31 (by decide)

/-- The vector of normalised edge weights is the same after the second projection as before the first: the first layer's host
    operations write other buffers, and it is no array of the first bias stage or of the second projection. -/
theorem W7_v31 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := kept_by_host hostOps1 main_v31
    _ = W3 m ρ c (Proc.devRef .tc main_v31) := W4_v31 m ρ c

/-- The vector of normalised edge weights is the same after the third projection as before the first: the second layer's host
    operations write other buffers, and it is no array of the second bias stage or of the third projection. -/
theorem W10_v31 : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := kept_by_host hostOps3 main_v31
    _ = W3 m ρ c (Proc.devRef .tc main_v31) := W7_v31 m ρ c

/-! ## What the second bias stage leaves, to the end of the run -/

/-- The array the second bias stage leaves (the second layer's output) is the third projection's left operand:
    that region reads it through its first window and leaves it as found; the host operations after it write
    other buffers; the last bias stage does not have it among its arrays. So at the end of the run it is as the
    second bias stage left it. -/
theorem W12_v63 : W12 m ρ c (Proc.devRef .tc main_v63) = W9 m ρ c (Proc.devRef .tc main_v63) :=
  calc W12 m ρ c (Proc.devRef .tc main_v63)
    _ = W11 m ρ c (Proc.devRef .tc main_v63) := W12_of_ne m ρ c main_v63 (by decide)
    _ = W10 m ρ c (Proc.devRef .tc main_v63) := kept_by_host hostOps5 main_v63
    _ = W9 m ρ c (Proc.devRef .tc main_v63) :=
        (W10_arr m ρ c 0).trans (((dat4 (V9 m ρ) c).arrAt_in 0 rfl _).trans (A_eq4 (V9 m ρ) c 0))

end Cert.KernelIdeal.Carried

end
-- ==== Proof.Chain.lean ====
/-
  What the idealized kernel program's two result buffers hold after the run, as the specification's functions of
  the argument arrays.

  The buffer contents at the twelve segment boundaries are a fold from the launch memory. It is read here one
  boundary at a time. The edge endpoints, the edge weights' normalisation and the nine arguments are written once,
  before the first region, and no later segment writes them, so they are the same at every later boundary. A
  projection region leaves in its output array the whole-array product of its two input arrays, a bias region the
  table plus the bias row (then tanh, in the first layer); the host operations between two regions are the
  gather, scaling and scatter-add of one aggregation. Composing the twelve steps gives the three layers.
-/
import proofs.«155394_j64733747085460_1_alg».proof.Proof.Gen.KernelIdeal.Frame
import proofs.«155394_j64733747085460_1_alg».proof.Proof.Spec
import proofs.«155394_j64733747085460_1_alg».proof.Proof.Linear0
import proofs.«155394_j64733747085460_1_alg».proof.Proof.Linear2
import proofs.«155394_j64733747085460_1_alg».proof.Proof.Linear4
import proofs.«155394_j64733747085460_1_alg».proof.Proof.Bias1
import proofs.«155394_j64733747085460_1_alg».proof.Proof.Bias3
import proofs.«155394_j64733747085460_1_alg».proof.Proof.Bias5
import proofs.«155394_j64733747085460_1_alg».proof.Proof.Carried
import proofs.«155394_j64733747085460_1_alg».proof.Proof.KernelRun
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

/-! ## A vector reshaped to one row is the vector broadcast along a new leading axis -/

/-- Both arrays read, at (0, j), the vector at j. -/
theorem reshape_row_eq_broadcast {α : Type} {a : ℕ} (v : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  rw [shapeCast_a_1a_apply]
  refine (broadcastInDim_apply ![1] hb v (ix2 u i) (ix1 i) fun ax => ?_).symm
  match ax with
  | ⟨0, _⟩ =>
    show i.val = if a = 1 then 0 else i.val
    split
    · have := i.isLt; omega
    · rfl

/-- Reads a buffer after a line of host operations, also under the operand list of a concatenation: each operation's
    result at its own buffer is its function's value, at another buffer what was there. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (m : (ℓ : Loc nD τ sig) → Buf (Elt Ideal) ℓ) (ρ : Dev nD → PrngReg) (c : Dev nD)

/-! ## The first boundary: what the host operations before the first region leave -/

set_option maxHeartbeats 1000000 in
/-- The sources of the edges, self loops appended. -/
theorem W3_src : W3 m ρ c (Proc.devRef .tc main_v5) = Cert.Spec.src (m ((c.tc : Thread nD τ).loc main_arg1)) := by
  dsimp only [W3, W2, W1, W0, hostOps0, hostOps0_1, hostOps0_2]
  after_results_simp
  finish_results
  unfold Cert.Spec.src Cert.Spec.endpoints
  rfl

set_option maxHeartbeats 1000000 in
/-- The targets of the edges, self loops appended. -/
theorem W3_dst : W3 m ρ c (Proc.devRef .tc main_v6) = Cert.Spec.dst (m ((c.tc : Thread nD τ).loc main_arg1)) := by
  dsimp only [W3, W2, W1, W0, hostOps0, hostOps0_1, hostOps0_2]
  after_results_simp
  finish_results
  unfold Cert.Spec.dst Cert.Spec.endpoints
  rfl

set_option maxHeartbeats 1000000 in
/-- The edge weights, a 1 appended per self loop, as the host operations before the normalisation leave them. -/
theorem W2_wts : W2 m ρ c (Proc.devRef .tc main_v8) = Cert.Spec.wts (m ((c.tc : Thread nD τ).loc main_arg2)) := by
  dsimp only [W2, W1, W0, hostOps0, hostOps0_1]
  after_results_simp
  finish_results
  unfold Cert.Spec.wts
  rfl

set_option maxHeartbeats 1000000 in
/-- The sources at the same boundary. -/
theorem W2_src : W2 m ρ c (Proc.devRef .tc main_v5) = Cert.Spec.src (m ((c.tc : Thread nD τ).loc main_arg1)) := by
  dsimp only [W2, W1, W0, hostOps0, hostOps0_1]
  after_results_simp
  finish_results
  unfold Cert.Spec.src Cert.Spec.endpoints
  rfl

set_option maxHeartbeats 1000000 in
/-- The targets at the same boundary. -/
theorem W2_dst : W2 m ρ c (Proc.devRef .tc main_v6) = Cert.Spec.dst (m ((c.tc : Thread nD τ).loc main_arg1)) := by
  dsimp only [W2, W1, W0, hostOps0, hostOps0_1]
  after_results_simp
  finish_results
  unfold Cert.Spec.dst Cert.Spec.endpoints
  rfl

set_option maxHeartbeats 1000000 in
/-- The reciprocal square roots of the degrees, 0 where the degree is not positive: the comparison, the reciprocal
    square root and the zero are read first, then the selection among them. -/
theorem W2_dinv : W2 m ρ c (Proc.devRef .tc main_v15) = Cert.Spec.dinv (m ((c.tc : Thread nD τ).loc main_arg1)) (m ((c.tc : Thread nD τ).loc main_arg2)) := by
  have h13 : W1 m ρ c (Proc.devRef .tc main_v13) = cmpf .ogt (Cert.Spec.deg (m ((c.tc : Thread nD τ).loc main_arg1)) (m ((c.tc : Thread nD τ).loc main_arg2))) Cert.Spec.zerosN := by
    dsimp only [W1, W0, hostOps0]
    after_results_simp
    finish_results
    unfold Cert.Spec.deg Cert.Spec.zerosN Cert.Spec.asColumn Cert.Spec.wts Cert.Spec.dst Cert.Spec.endpoints
    rfl
  have h14 : W1 m ρ c (Proc.devRef .tc main_v14) = Host.rsqrt (F := Ideal) (Cert.Spec.deg (m ((c.tc : Thread nD τ).loc main_arg1)) (m ((c.tc : Thread nD τ).loc main_arg2))) := by
    dsimp only [W1, W0, hostOps0]
    after_results_simp
    finish_results
    unfold Cert.Spec.deg Cert.Spec.zerosN Cert.Spec.asColumn Cert.Spec.wts Cert.Spec.dst Cert.Spec.endpoints
    rfl
  have hz : W1 m ρ c (Proc.devRef .tc main_cst_2) = constant (F := Ideal) S_ .f32 0x00000000#32 := by
    dsimp only [W1, W0, hostOps0]
    after_results_simp
  show StableHlo.after hostOps0_1 (W1 m ρ c) (Proc.devRef .tc main_v15) = _
  generalize W1 m ρ c = V1 at h13 h14 hz ⊢
  dsimp only [hostOps0_1]
  after_results_simp
  show select (V1 (Proc.devRef .tc main_v13)) (V1 (Proc.devRef .tc main_v14))
    (broadcastInDim S100000 ![] bcast_S_S100000 (id (V1 (Proc.devRef .tc main_cst_2)))) = _
  rw [h13, h14, hz]
  unfold Cert.Spec.dinv
  rfl

set_option maxHeartbeats 4000000 in
/-- The normalised weights of the edges: the two gathers of the reciprocal square roots at the (wrapped) endpoints
    and the two products, read off the boundary before them. -/
theorem W3_norm : W3 m ρ c (Proc.devRef .tc main_v31) = Cert.Spec.norm (m ((c.tc : Thread nD τ).loc main_arg1)) (m ((c.tc : Thread nD τ).loc main_arg2)) := by
  have h5 := W2_src m ρ c
  have h6 := W2_dst m ρ c
  have h8 := W2_wts m ρ c
  have h15 := W2_dinv m ρ c
  show StableHlo.after hostOps0_2 (W2 m ρ c) (Proc.devRef .tc main_v31) = _
  generalize W2 m ρ c = V2 at h5 h6 h8 h15 ⊢
  dsimp only [hostOps0_2]
  after_results_simp
  rw [h5, h6, h8, h15]
  unfold Cert.Spec.norm Cert.Spec.asColumn Cert.Spec.wrap
  rfl

/-! ## Layer 1 -/

/-- The first projection region leaves x · W1. -/
theorem W4_project : W4 m ρ c (Proc.devRef .tc main_v32) = Cert.Spec.project1 (m ((c.tc : Thread nD τ).loc main_arg0)) (m ((c.tc : Thread nD τ).loc main_arg3)) := by
  refine (W4_arr m ρ c 2).trans ?_
  refine (RegionValue.linear0_value (V3 m ρ) c).trans ?_
  show Host.dotGeneral (F := Ideal) (φ₁ := .f32) (φ₂ := .f32) (DotDims.plain 100000 128 64) none
    (W3 m ρ c (Proc.devRef .tc main_arg0)) (W3 m ρ c (Proc.devRef .tc main_arg3)) = _
  rw [Carried.W3_arg0, Carried.W3_arg3]
  rfl

set_option maxHeartbeats 2000000 in
/-- The host operations after it aggregate the projected rows over the edges. -/
theorem W5_aggregate : W5 m ρ c (Proc.devRef .tc main_v45)
    = Cert.Spec.aggregate64 (W4 m ρ c (Proc.devRef .tc main_v32)) (W4 m ρ c (Proc.devRef .tc main_v5))
        (W4 m ρ c (Proc.devRef .tc main_v6)) (W4 m ρ c (Proc.devRef .tc main_v31)) := by
  dsimp only [W5, hostOps1]
  after_results_simp
  unfold Cert.Spec.aggregate64 Cert.Spec.asColumn Cert.Spec.wrap
  rfl

set_option maxHeartbeats 2000000 in
/-- and reshape the bias vector to one row. -/
theorem W5_row : W5 m ρ c (Proc.devRef .tc main_v46) = Cert.Spec.biasRow64 (m ((c.tc : Thread nD τ).loc main_arg4)) := by
  dsimp only [W5, hostOps1]
  after_results_simp
  rw [Carried.W4_arg4]
  exact reshape_row_eq_broadcast _ _ _

/-- The first bias region leaves tanh of the table plus the row. -/
theorem W6_hidden : W6 m ρ c (Proc.devRef .tc main_v47) = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 2).trans ?_
  refine (RegionValue.bias1_value (V5 m ρ) c Cert.ReferenceIdeal.Facts₀.bcast_S1x64_S100000x64_0_1).trans ?_
  show Host.tanh (F := Ideal) (φ := .f32) (addf (F := Ideal) (φ := .f32) (W5 m ρ c (Proc.devRef .tc main_v45))
    (broadcastInDim S100000x64 ![0, 1] _ (W5 m ρ c (Proc.devRef .tc main_v46)))) = _
  rw [W5_aggregate, W5_row, W4_project, Carried.W4_v5, Carried.W4_v6, Carried.W4_v31, W3_src, W3_dst, W3_norm]
  rfl

/-! ## Layer 2 -/

/-- The second projection region leaves hidden · W2. -/
theorem W7_project : W7 m ρ c (Proc.devRef .tc main_v48) = Cert.Spec.project2 (Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) := by
  refine (W7_arr m ρ c 2).trans ?_
  refine (RegionValue.linear2_value (V6 m ρ) c).trans ?_
  show Host.dotGeneral (F := Ideal) (φ₁ := .f32) (φ₂ := .f32) (DotDims.plain 100000 64 32) none
    (W6 m ρ c (Proc.devRef .tc main_v47)) (W6 m ρ c (Proc.devRef .tc main_arg5)) = _
  rw [W6_hidden, Carried.W6_arg5]
  rfl

set_option maxHeartbeats 2000000 in
/-- The host operations after it aggregate over the edges, -/
theorem W8_aggregate : W8 m ρ c (Proc.devRef .tc main_v61)
    = Cert.Spec.aggregate32 (W7 m ρ c (Proc.devRef .tc main_v48)) (W7 m ρ c (Proc.devRef .tc main_v5))
        (W7 m ρ c (Proc.devRef .tc main_v6)) (W7 m ρ c (Proc.devRef .tc main_v31)) := by
  dsimp only [W8, hostOps3]
  after_results_simp
  unfold Cert.Spec.aggregate32 Cert.Spec.asColumn Cert.Spec.wrap
  rfl

set_option maxHeartbeats 2000000 in
/-- and reshape the bias vector to one row. -/
theorem W8_row : W8 m ρ c (Proc.devRef .tc main_v62) = Cert.Spec.biasRow32 (m ((c.tc : Thread nD τ).loc main_arg6)) := by
  dsimp only [W8, hostOps3]
  after_results_simp
  rw [Carried.W7_arg6]
  exact reshape_row_eq_broadcast _ _ _

/-- The second bias region leaves the embedding. -/
theorem W9_emb : W9 m ρ c (Proc.devRef .tc main_v63) = Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W9_arr m ρ c 2).trans ?_
  refine (RegionValue.bias3_value (V8 m ρ) c Cert.ReferenceIdeal.Facts₀.bcast_S1x32_S100000x32_0_1).trans ?_
  show addf (F := Ideal) (φ := .f32) (W8 m ρ c (Proc.devRef .tc main_v61))
    (broadcastInDim S100000x32 ![0, 1] _ (W8 m ρ c (Proc.devRef .tc main_v62))) = _
  rw [W8_aggregate, W8_row, W7_project, Carried.W7_v5, Carried.W7_v6, Carried.W7_v31, W3_src, W3_dst, W3_norm]
  rfl

/-! ## Layer 3 -/

/-- The third projection region leaves tanh (emb) · W3. -/
theorem W10_project : W10 m ρ c (Proc.devRef .tc main_v64)
    = Cert.Spec.project3 (Host.tanh (F := Ideal) (Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg7)) := by
  refine (W10_arr m ρ c 2).trans ?_
  refine (RegionValue.linear4_value (V9 m ρ) c).trans ?_
  show Host.dotGeneral (F := Ideal) (φ₁ := .f32) (φ₂ := .f32) (DotDims.plain 100000 32 16) none
    (Host.tanh (F := Ideal) (s := S100000x32) (φ := .f32) (W9 m ρ c (Proc.devRef .tc main_v63))) (W9 m ρ c (Proc.devRef .tc main_arg7)) = _
  rw [W9_emb, Carried.W9_arg7]
  rfl

set_option maxHeartbeats 2000000 in
/-- The host operations after it aggregate over the edges, -/
theorem W11_aggregate : W11 m ρ c (Proc.devRef .tc main_v77)
    = Cert.Spec.aggregate16 (W10 m ρ c (Proc.devRef .tc main_v64)) (W10 m ρ c (Proc.devRef .tc main_v5))
        (W10 m ρ c (Proc.devRef .tc main_v6)) (W10 m ρ c (Proc.devRef .tc main_v31)) := by
  dsimp only [W11, hostOps5]
  after_results_simp
  unfold Cert.Spec.aggregate16 Cert.Spec.asColumn Cert.Spec.wrap
  rfl

set_option maxHeartbeats 2000000 in
/-- and reshape the bias vector to one row. -/
theorem W11_row : W11 m ρ c (Proc.devRef .tc main_v78) = Cert.Spec.biasRow16 (m ((c.tc : Thread nD τ).loc main_arg8)) := by
  dsimp only [W11, hostOps5]
  after_results_simp
  rw [Carried.W10_arg8]
  exact reshape_row_eq_broadcast _ _ _

/-! ## The two results -/

/-- The first result buffer ends holding the logits. -/
theorem W12_logits : W12 m ρ c (Proc.devRef .tc main_v79) = Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W12_arr m ρ c 2).trans ?_
  refine (RegionValue.bias5_value (V11 m ρ) c Cert.ReferenceIdeal.Facts₀.bcast_S1x16_S100000x16_0_1).trans ?_
  show addf (F := Ideal) (φ := .f32) (W11 m ρ c (Proc.devRef .tc main_v77))
    (broadcastInDim S100000x16 ![0, 1] _ (W11 m ρ c (Proc.devRef .tc main_v78))) = _
  rw [W11_aggregate, W11_row, W10_project, Carried.W10_v5, Carried.W10_v6, Carried.W10_v31, W3_src, W3_dst, W3_norm]
  rfl

/-- The second result buffer ends holding the embedding: nothing after the second bias region writes it. -/
theorem W12_emb : W12 m ρ c (Proc.devRef .tc main_v63) = Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Carried.W12_v63 m ρ c).trans (W9_emb m ρ c)

/-! ## The run -/

/-- Every weakly fair execution of the program on the extended reals terminates without a fault, with the logits and
    the embedding of the argument arrays in its two result buffers and the arguments as launched. -/
theorem run : θ_run defs (onTc (τ := τ) (main (F := Ideal))) ⟨m, fun _ => 0, ρ⟩ (fun r => ∀ c : Dev nD,
      r.2.mem ((c.tc : Thread nD τ).loc main_v79) = Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v63) = Cert.Spec.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun r h c => ⟨(h c).1.trans (W12_logits m ρ c), (h c).2.1.trans (W12_emb m ρ c), (h c).2.2⟩)
    (Cert.KernelIdeal.Results.run (F := Ideal) m ρ)

end Cert.KernelIdeal.Chain

end
-- ==== Proof.RefBridge.lean ====
/-
  The reference program's two result terms are the specification's functions of the argument arrays.

  The generated run of the reference states each result as the composition of its host operations applied to the
  launch contents of the arguments. That composition is, operation for operation, the three layers of the
  specification (the normalisation of the edges being recomputed, identically, in each layer), so the two are equal
  by unfolding the specification's definitions.
-/
import proofs.«155394_j64733747085460_1_alg».proof.Proof.Gen.ReferenceIdeal.Run
import proofs.«155394_j64733747085460_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

set_option maxRecDepth 16384 in
/-- The reference's second result is the embedding of the specification. -/
theorem emb_eq : res_main_v94 (F := Ideal) m c
    = Cert.Spec.emb (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold res_main_v94 Cert.Spec.emb Cert.Spec.hidden Cert.Spec.addRow32 Cert.Spec.addRow64 Cert.Spec.biasRow32 Cert.Spec.biasRow64
    Cert.Spec.aggregate32 Cert.Spec.aggregate64 Cert.Spec.project1 Cert.Spec.project2 Cert.Spec.norm Cert.Spec.dinv Cert.Spec.deg
    Cert.Spec.zerosN Cert.Spec.asColumn Cert.Spec.wrap Cert.Spec.wts Cert.Spec.src Cert.Spec.dst Cert.Spec.endpoints
  rfl

set_option maxRecDepth 16384 in
/-- The reference's first result is the logits of the specification. -/
theorem logits_eq : res_main_v140 (F := Ideal) m c
    = Cert.Spec.logits (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold res_main_v140 Cert.Spec.logits Cert.Spec.emb Cert.Spec.hidden Cert.Spec.addRow16 Cert.Spec.addRow32 Cert.Spec.addRow64
    Cert.Spec.biasRow16 Cert.Spec.biasRow32 Cert.Spec.biasRow64 Cert.Spec.aggregate16 Cert.Spec.aggregate32 Cert.Spec.aggregate64
    Cert.Spec.project1 Cert.Spec.project2 Cert.Spec.project3 Cert.Spec.norm Cert.Spec.dinv Cert.Spec.deg
    Cert.Spec.zerosN Cert.Spec.asColumn Cert.Spec.wrap Cert.Spec.wts Cert.Spec.src Cert.Spec.dst Cert.Spec.endpoints
  rfl

end Cert.ReferenceIdeal.RefValue

end
-- ==== Proof.lean ====
/-
  A three-layer graph convolution: the Pallas program against its jnp reference, on the extended reals.

  Both programs compute, from a node table x, an edge list with weights and three weight matrices with biases,
      emb    = layer₂ (tanh (layer₁ x)),      logits = layer₃ (tanh emb),
  where layer (h) (i, q) = ∑ over the edges e into node i of (h · W) (src e, q) · norm e + b q and norm e is the
  symmetric degree normalisation of edge e (self loops included). The reference does everything with whole-array
  host operations and recomputes the normalisation in every layer. The kernel program computes the normalisation
  once, does the three dense products h · W and the three bias (and tanh) stages in pipelined regions over ten
  blocks of 10000 rows, and leaves the gather / scatter-add of the aggregation to the same host operations as the
  reference.

  The two agree because
    • a projection region's output array is the whole product: a row of a block of the product reads that row of
      the block of h and all of W, rounding to bf16 is the identity on the extended reals, and a product into a zero
      accumulator is the plain sum over the contracted axis (Linear0, Linear2, Linear4);
    • a bias region's output array is the table plus the bias row, entry by entry, then tanh in the first layer;
      the bias vector reshaped to one row is the vector broadcast along a new leading axis (Bias1, Bias3, Bias5);
    • the host operations between the regions are the reference's own, applied to equal operands, and what is written
      before the first region is not written again (Carried, Chain).
  No law of arithmetic beyond these is used, so the precondition (finite inputs) is never opened.

  The specification is Spec; the kernel program's run with its results named is KernelRun and their values Chain;
  the reference's run is generated and its results are the specification by unfolding (RefBridge). The three frame
  claims are the generated frames; the idealisation rewrote nothing, so its claim is trivial.
-/
import proofs.«155394_j64733747085460_1_alg».proof.Defs
import proofs.«155394_j64733747085460_1_alg».proof.Proof.Gen.Kernel
import proofs.«155394_j64733747085460_1_alg».proof.Proof.Gen.Kernel.Frame
import proofs.«155394_j64733747085460_1_alg».proof.Proof.Gen.KernelIdeal
import proofs.«155394_j64733747085460_1_alg».proof.Proof.Gen.KernelIdeal.Frame
import proofs.«155394_j64733747085460_1_alg».proof.Proof.Gen.ReferenceIdeal
import proofs.«155394_j64733747085460_1_alg».proof.Proof.Gen.ReferenceIdeal.Run
import proofs.«155394_j64733747085460_1_alg».proof.Proof.Gen.Pre_finite_inputs
import proofs.«155394_j64733747085460_1_alg».proof.Proof.KernelRun
import proofs.«155394_j64733747085460_1_alg».proof.Proof.Chain
import proofs.«155394_j64733747085460_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- From memories that agree on the arguments both programs end with the same logits and the same embedding. -/
theorem algebraic : Cert.algebraic_KernelIdeal_ReferenceIdeal := by
  intro m ρ m' ρ' _ hagree
  refine ⟨_, _, Cert.KernelIdeal.Chain.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.RefValue.logits_eq, a0, a1, a2, a3, a4, a5, a6, a7, a8]
  · obtain ⟨a0, a1, a2, a3, a4, a5, a6, a7, a8⟩ := hagree c
    rw [(h c).2.1, Cert.ReferenceIdeal.RefValue.emb_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
